-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S1x8192 .f32) (main_arg5 : FVec F S8192x8192 .f32) (main_arg6 : FVec F S8192x8192 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1x8192 .f32 := Host.absf main_arg4
  let main_cst_6 : FVec F S_ .f32 := constant S_ .f32 0x7F800000#32
  let main_v20 : FVec F S1x8192 .f32 := broadcastInDim S1x8192 ![] bcast_S_S1x8192 main_cst_6
  let main_v21 : IVec S1x8192 1 := cmpf .olt main_v19 main_v20
  let main_c_7 : IVec S_ 1 := constantI S_ 1 1#1
  let main_v22 : IVec S_ 1 := (fun x v => Host.reduce IntOp.andi x v reducesTo_S1x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  main_v33

def fn {F : FTy → Type} [FloatOps F] (main_arg0 : FVec F S1x8192 .f32) (main_arg1 : FVec F S1x8192 .f32) (main_arg2 : FVec F S1x8192 .f32) (main_arg3 : FVec F S1x8192 .f32) (main_arg4 : FVec F S1x8192 .f32) (main_arg5 : FVec F S8192x8192 .f32) (main_arg6 : FVec F S8192x8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_v13 main_v16
-- ==== Kernel.lean ====
abbrev S1x8192 : Shape := ⟨2, ![1, 8192]⟩
abbrev S8192x8192 : Shape := ⟨2, ![8192, 8192]⟩
abbrev S1x1024 : Shape := ⟨2, ![1, 1024]⟩
abbrev S1024x2048 : Shape := ⟨2, ![1024, 2048]⟩
abbrev S1x2048 : Shape := ⟨2, ![1, 2048]⟩
abbrev S8192x1 : Shape := ⟨2, ![8192, 1]⟩
abbrev S512x1 : Shape := ⟨2, ![512, 1]⟩
abbrev S512x2048 : Shape := ⟨2, ![512, 2048]⟩

abbrev nBuf : Space → Nat
  | .hbm => 14
  | .vmem => 27
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S8192x8192, .f32⟩
  | .hbm, ⟨13, _⟩ => ⟨S8192x8192, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S1x2048, .f32⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  inb_S1024x2048_S1024x2048_0_0 : ∀ a, (![0, 0] : Fin 2 → Nat) a + S1024x2048.size a ≤ S1024x2048.size a
  h_S1024x2048 : 0 < S1024x2048.numel
  natLt_1_32 : 1 < 32
  shapeCasts_S1x8192_S8192x1 : S1x8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x8192.size a
  hwx1_4 : ∀ i : grid1.Coords, EltTy.bits .f32 = 32 ∨ (Rect.block (s := S1x8192) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S8192x8192.size a
  hwx1_5 : ∀ i : grid1.Coords, EltTy.bits .f32 = 32 ∨ (Rect.block (s := S8192x8192) S512x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S8192x8192.size a
  hwx1_6 : ∀ i : grid1.Coords, EltTy.bits .f32 = 32 ∨ (Rect.block (s := S8192x8192) S512x2048.size (cc1_transform_6 i) (hinb1_6 i)).WholeWords (EltTy.packing .f32)

variable [Facts₀]

def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev win0_0 : Pipeline.Window sig grid0 :=
  Pipeline.Window.ofSpec (Memref.whole main_arg0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S512x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1x8192 : Shape := ⟨2, ![1, 8192]⟩
abbrev S8192x8192 : Shape := ⟨2, ![8192, 8192]⟩
abbrev S_ : Shape := ⟨0, ![]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S_, .f32⟩
  | .hbm, ⟨12, _⟩ => ⟨S1x8192, .f32⟩
  | .hbm, ⟨13, _⟩ => ⟨S1x8192, .i1⟩
  | .hbm, ⟨14, _⟩ => ⟨S1x8192, .f32⟩
  | .hbm, ⟨15, _⟩ => ⟨S_, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S_, .f32⟩
  | .hbm, ⟨20, _⟩ => ⟨S1x8192, .f32⟩
  | .hbm, ⟨21, _⟩ => ⟨S1x8192, .f32⟩
  | .hbm, ⟨22, _⟩ => ⟨S1x8192, .f32⟩
  | .hbm, ⟨23, _⟩ => ⟨S8192x1, .f32⟩
  | .hbm, ⟨24, _⟩ => ⟨S8192x8192, .f32⟩
  | .hbm, ⟨25, _⟩ => ⟨S8192x1, .f32⟩
  | .hbm, ⟨26, _⟩ => ⟨S8192x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  transposes_S1x8192_S8192x1_1_0 : S1x8192.Transposes [1, 0] S8192x1
  dot_S1x8192_S8192x8192_S1x8192_1_0_0_1_n_n_wf : DotDims.WF S1x8192 S8192x8192 S1x8192 [1] [0] [0] [1] [] []
  dot_S8192x1_S1x8192_S8192x8192_1_0_0_1_n_n_wf : DotDims.WF S8192x1 S1x8192 S8192x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.BitsSpikeBody.lean ====
import proofs.«157642_j27358941675618_2_alg».proof.Proof.Gen.Kernel.Launch
import proofs.«157642_j27358941675618_2_alg».proof.Proof.Gen.Kernel.Skeleton
import proofs.«157642_j27358941675618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The spike kernel's body, one grid point at a time

The grid is 4 column blocks of 2048 neurons by 8 blocks of 1024 presynaptic indices, the presynaptic axis the fast
one. At a point the body adds to a running sum, kept in a scratch row of 2048 entries, the two partial products of
this point's blocks: the external drive's block times its weight block plus the recurrent drive's block times its
weight block. At the first presynaptic block the running sum is first set to zero; at the last one the membrane
potentials' block is added and the result compared with the threshold, which gives this column block's spikes.
So a point is in one of three cases, and each case is a triple over the values its buffers hold. -/

/-- The point is at the first presynaptic block: the body's first condition, as the kernel computes it. -/
abbrev atFirstK (i : grid0.Coords) : Prop :=
  (Scalar.cmpi .ne (Scalar.extui (Scalar.cmpi .eq (BitVec.ofNat 32 (i 1).val) 0#32)) 0#32) = 1#1
/-- The point is at the last presynaptic block: the body's second condition. -/
abbrev atLastK (i : grid0.Coords) : Prop := k0_cond2 i = 1#1

/-- A rectangle's corner written `![0, 0]` is the zero offset. -/
theorem corner_zero : (![0, 0] : Fin 2 → Nat) = fun _ => 0 := by
  funext a; fin_cases a <;> rfl

/-- The running sum after a point: what it was, plus this point's two partial products. -/
abbrev addPartials (acc : Vec F S1x2048 .f32) (x0 x1 : Vec F S1x1024 .f32) (x2 x3 : Vec F S1024x2048 .f32) : Vec F S1x2048 .f32 :=
  k0_pay2 acc x0 x2 x1 x3

set_option maxHeartbeats 1000000 in
/-- A point strictly between the first and the last presynaptic block: the inputs and the idle output buffer are
    handed back as found, and the running sum gains this point's partial products. -/
theorem body_middle (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬atFirstK i) (hc1 : ¬atLastK i)
    (x0 x1 : Vec F S1x1024 .f32) (x2 x3 : Vec F S1024x2048 .f32) (x4 xi xs : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
            ∗ owns (c : Thread nD τ) arg8 fullShare (addPartials xs x0 x1 x2 x3)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  iexists _; isplitr
  swap; · iexact H6
  ipureintro
  rw [View.read_writes_eq_canon _ _ _ (fun y => ⟨_, List.mem_singleton_self _, View.mem_set_unit_zero corner_zero inb_S1x2048_S1x2048_0_0 y⟩),
    View.canon_unit_zero corner_zero]
  simp only [View.readAt_eq_ld, harg2.read_unread, harg3.read_unread, harg4.read_unread, harg5.read_unread, harg8.read_unread,
    View.ld_unit_zero (S := S1x2048) corner_zero, View.ld_unit_zero (S := S1x1024) corner_zero,
    View.ld_unit_zero (S := S1024x2048) corner_zero]

set_option maxHeartbeats 1000000 in
/-- A point at the first presynaptic block (and not the last): whatever the scratch held, it is set to zero and
    then gains this point's partial products. -/
theorem body_first (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : atFirstK i) (hc1 : ¬atLastK i)
    (x0 x1 : Vec F S1x1024 .f32) (x2 x3 : Vec F S1024x2048 .f32) (x4 xi : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
            ∗ owns (c : Thread nD τ) arg8 fullShare (addPartials k0_pay1 x0 x1 x2 x3)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  iexists _; isplitr
  swap; · iexact H6
  ipureintro
  sl_unfold_run_names
  rw [View.read_writes_eq_canon _ _ _ (fun y => ⟨_, List.mem_cons.mpr (Or.inl rfl), View.mem_set_unit_zero corner_zero inb_S1x2048_S1x2048_0_0 y⟩),
    View.canon_cons_unit_zero corner_zero]
  simp only [View.readCov_unit_zero (S := S1x2048) _ corner_zero, View.readAt_eq_ld, harg2.read_unread, harg3.read_unread, harg4.read_unread,
    harg5.read_unread, harg6.read_unread, harg8.read_unread,
    View.ld_unit_zero (S := S1x2048) corner_zero, View.ld_unit_zero (S := S1x1024) corner_zero,
    View.ld_unit_zero (S := S1024x2048) corner_zero]

set_option maxHeartbeats 1000000 in
/-- A point at the last presynaptic block (and not the first): the running sum gains this point's partial products,
    and the output buffer, whatever it held, receives the threshold comparison of the potentials' block plus
    that final sum. -/
theorem body_last (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬atFirstK i) (hc1 : atLastK i)
    (x0 x1 : Vec F S1x1024 .f32) (x2 x3 : Vec F S1024x2048 .f32) (x4 xs : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k0_pay3 x4 (addPartials xs x0 x1 x2 x3))
            ∗ owns (c : Thread nD τ) arg8 fullShare (addPartials xs x0 x1 x2 x3)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf6
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    swap; · iexact H5
    ipureintro
    sl_unfold_run_names
    rw [View.read_writes_eq_canon _ _ _ (fun y => ⟨_, List.mem_singleton_self _, View.mem_set_unit_zero corner_zero inb_S1x2048_S1x2048_0_0 y⟩),
      View.canon_unit_zero corner_zero]
    simp only [View.readCov_unit_zero (S := S1x2048) _ corner_zero, View.readAt_eq_ld, harg2.read_unread, harg3.read_unread, harg4.read_unread,
    harg5.read_unread, harg6.read_unread, harg8.read_unread,
    View.ld_unit_zero (S := S1x2048) corner_zero, View.ld_unit_zero (S := S1x1024) corner_zero,
    View.ld_unit_zero (S := S1024x2048) corner_zero]
  iexists _; isplitr
  swap; · iexact H6
  ipureintro
  sl_unfold_run_names
  rw [View.read_writes_eq_canon _ _ _ (fun y => ⟨_, List.mem_singleton_self _, View.mem_set_unit_zero corner_zero inb_S1x2048_S1x2048_0_0 y⟩),
    View.canon_unit_zero corner_zero]
  simp only [View.readCov_unit_zero (S := S1x2048) _ corner_zero, View.readAt_eq_ld, harg2.read_unread, harg3.read_unread, harg4.read_unread,
    harg5.read_unread, harg6.read_unread, harg8.read_unread,
    View.ld_unit_zero (S := S1x2048) corner_zero, View.ld_unit_zero (S := S1x1024) corner_zero,
    View.ld_unit_zero (S := S1024x2048) corner_zero]

end Cert.Kernel.Hand

end
-- ==== Proof.BitsSpikePoints.lean ====
import proofs.«157642_j27358941675618_2_alg».proof.Proof.BitsSpikeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The spike kernel over its grid: what every buffer holds at every point

Point `t` of the 32 is column block `t / 8` at presynaptic block `t % 8`. Everything here is stated at a parameter
`V`, the contents of the TensorCore's buffers when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds this point's block, whether or not the pipeline fetched it
    here: where it was not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- Input window 1's current staging buffer holds this point's block, whether or not the pipeline fetched it
    here: where it was not fetched the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-- Input window 2's current staging buffer holds this point's block, whether or not the pipeline fetched it
    here: where it was not fetched the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  refine (dat.before_in_eq_fetched 2 rfl (fun _ => rfl) (fun _ _ _ => rfl) hkeep t d).trans ?_
  unfold Dat.fetched Dat.blockOf iblk0; rw [hA]; try rfl

/-- Input window 3's current staging buffer holds this point's block, whether or not the pipeline fetched it
    here: where it was not fetched the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  refine (dat.before_in_eq_fetched 3 rfl (fun _ => rfl) (fun _ _ _ => rfl) hkeep t d).trans ?_
  unfold Dat.fetched Dat.blockOf iblk0; rw [hA]; try rfl

/-- Input window 4's current staging buffer holds this point's block, whether or not the pipeline fetched it
    here: where it was not fetched the block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  refine (dat.before_in_eq_fetched 4 rfl (fun _ => rfl) (fun _ _ _ => rfl) hkeep t d).trans ?_
  unfold Dat.fetched Dat.blockOf iblk0; rw [hA]; try rfl

/-! ## Where a point sits among the presynaptic blocks -/

/-- The first presynaptic block is at the points divisible by 8. -/
theorem atFirstK_iff : ∀ t : Fin cfg0.N, atFirstK (grid0.coords t) ↔ t.val % 8 = 0 :=
  (by decide +kernel : ∀ t : Fin grid0.N, atFirstK (grid0.coords t) ↔ t.val % 8 = 0)
/-- The last presynaptic block is at the points that leave 7. -/
theorem atLastK_iff : ∀ t : Fin cfg0.N, atLastK (grid0.coords t) ↔ t.val % 8 = 7 :=
  (by decide +kernel : ∀ t : Fin grid0.N, atLastK (grid0.coords t) ↔ t.val % 8 = 7)

/-- Away from the last presynaptic block the body stores nothing into the spikes' buffer, and the pipeline does not
    write it back there; at the last block it does both. -/
theorem spikes_idle : ∀ t : Fin cfg0.N, ¬atLastK (grid0.coords t) → cfg0.idle 5 (grid0.coords t) = true := by decide +kernel
theorem spikes_unflushed : ∀ t : Fin cfg0.N, ¬atLastK (grid0.coords t) → (cfg0.win 5).flush t = false := by decide +kernel
theorem spikes_live : ∀ t : Fin cfg0.N, atLastK (grid0.coords t) → cfg0.idle 5 (grid0.coords t) = false := by decide +kernel

/-! ## The running sum, point by point -/

/-- This point's partial products added to `acc`: the drive's block times its weights' block plus the recurrent
    drive's block times its weights' block. -/
abbrev step (c : Dev nD) (acc : Vec F S1x2048 .f32) (t : Fin cfg0.N) : Vec F S1x2048 .f32 :=
  addPartials acc (iblk0 V c 0 t) (iblk0 V c 1 t) (iblk0 V c 2 t) (iblk0 V c 3 t)

/-- What the scratch row holds after point `n`: at a first presynaptic block the sum restarts from zero, elsewhere it
    continues from the point before. -/
def runningSum (c : Dev nD) : (n : ℕ) → n < cfg0.N → Vec F S1x2048 .f32
  | 0, hn => step V c k0_pay1 ⟨0, hn⟩
  | n + 1, hn =>
    if (n + 1) % 8 = 0 then step V c k0_pay1 ⟨n + 1, hn⟩
    else step V c (runningSum c n (Nat.lt_of_succ_lt hn)) ⟨n + 1, hn⟩

theorem runningSum_first (c : Dev nD) (t : Fin cfg0.N) (h : t.val % 8 = 0) :
    runningSum V c t.val t.isLt = step V c k0_pay1 t := by
  obtain ⟨n, hn⟩ := t
  cases n with
  | zero => rfl
  | succ n => exact if_pos h

theorem runningSum_next (c : Dev nD) (t : Fin cfg0.N) (h : ¬t.val % 8 = 0) :
    runningSum V c t.val t.isLt = step V c (runningSum V c (t.val - 1) (Nat.lt_of_le_of_lt (Nat.sub_le _ _) t.isLt)) t := by
  obtain ⟨n, hn⟩ := t
  cases n with
  | zero => exact absurd (Nat.zero_mod _) h
  | succ n => exact if_neg h

/-- The spikes' block as the last presynaptic block of a column block leaves it. -/
abbrev spikesBlock (c : Dev nD) (t : Fin cfg0.N) : Vec F S1x2048 .f32 :=
  k0_pay3 (iblk0 V c 4 t) (runningSum V c t.val t.isLt)

/-! ## The region's invariant -/

/-- The scratch row as a whole memref. -/
abbrev scratchRow : Memref sig .tc .vmem S1x2048 .f32 := Memref.whole cc0_scratch0

/-- The class invariant (every scoped buffer no window stages at some contents, the generator register at some
    state) hands out the scratch row at some contents and takes it back at any contents. -/
theorem scratch_out_of_rest (c : Dev nD) :
    (Pipeline.ΦA spec0 c : sProp 𝕄)
      ⊢ iprop((∃ d, owns (c : Thread nD τ) scratchRow fullShare d) ∗ ((∃ d, owns (c : Thread nD τ) scratchRow fullShare d) -∗ Pipeline.ΦA spec0 c)) := by
  unfold Pipeline.ΦA; rw [scopedRest0_eq]; simp only [scratchRow, owns_whole]
  iintro ⟨⟨Hs, Hrest⟩, Hp⟩
  isplitl [Hs]; · iexact Hs
  iintro Hs
  isplitl [Hs Hrest]
  · isplitl [Hs]; · iexact Hs
    iexact Hrest
  iexact Hp

/-- Before the first point the class invariant; after point `n` the scratch row at the running sum there, beside
    the promise that handing the row back at any contents restores the class invariant. -/
def sumInv (c : Dev nD) : (n : ℕ) → n ≤ cfg0.N → sProp 𝕄
  | 0, _ => Pipeline.ΦA spec0 c
  | n + 1, hn => iprop(owns (c : Thread nD τ) scratchRow fullShare (runningSum V c n hn)
      ∗ ((∃ d, owns (c : Thread nD τ) scratchRow fullShare d) -∗ Pipeline.ΦA spec0 c))

theorem sumInv_pos (c : Dev nD) (n : ℕ) (h : n ≤ cfg0.N) (hz : n ≠ 0) :
    sumInv V c n h = iprop(owns (c : Thread nD τ) scratchRow fullShare (runningSum V c (n - 1) (by omega))
      ∗ ((∃ d, owns (c : Thread nD τ) scratchRow fullShare d) -∗ Pipeline.ΦA spec0 c)) := by
  cases n with
  | zero => exact absurd rfl hz
  | succ n => rfl

/-- Before any point the scratch row can be taken at SOME contents, leaving the promise. -/
theorem sumInv_forget (c : Dev nD) (n : ℕ) (h : n ≤ cfg0.N) :
    sumInv V c n h ⊢ iprop((∃ d, owns (c : Thread nD τ) scratchRow fullShare d) ∗ ((∃ d, owns (c : Thread nD τ) scratchRow fullShare d) -∗ Pipeline.ΦA spec0 c)) := by
  cases n with
  | zero => exact scratch_out_of_rest c
  | succ n =>
    show iprop(owns (c : Thread nD τ) scratchRow fullShare (runningSum V c n h) ∗ _) ⊢ _
    iintro ⟨Hs, Hw⟩
    isplitl [Hs]; · iexists _; iexact Hs
    iexact Hw

/-! ## The proof data -/

/-- The region's proof data on core `c`: the arrays as the region finds them; after the body each input's buffer at
    its block and the spikes' buffer at `spikesBlock` (consulted only at a last presynaptic block: elsewhere the
    window is idle); the invariant `sumInv`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => spikesBlock V c t
  Φ t := sumInv V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = spikesBlock V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem sumInv_castSucc (c : Dev nD) (t : Fin cfg0.N) :
    (dat0 V c).Φ t.castSucc = sumInv V c t.val (Nat.le_of_lt t.isLt) := by
  dsimp only [dat0]; simp only [Fin.coe_castSucc]

/-! ## The body obligation -/

theorem leaves_in0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem leaves_in1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem leaves_in2 (c : Dev nD) (t : Fin cfg0.N) :
    (dat0 V c).leavesExact 2 t = owns (c : Thread nD τ) (st0_2 t) fullShare (iblk0 V c 2 t) := by
  unfold Dat.leavesExact; rw [show cfg0.idle 2 (cfg0.grid.coords t) = false from rfl, after0_2]
theorem leaves_in3 (c : Dev nD) (t : Fin cfg0.N) :
    (dat0 V c).leavesExact 3 t = owns (c : Thread nD τ) (st0_3 t) fullShare (iblk0 V c 3 t) := by
  unfold Dat.leavesExact; rw [show cfg0.idle 3 (cfg0.grid.coords t) = false from rfl, after0_3]
theorem leaves_in4 (c : Dev nD) (t : Fin cfg0.N) :
    (dat0 V c).leavesExact 4 t = owns (c : Thread nD τ) (st0_4 t) fullShare (iblk0 V c 4 t) := by
  unfold Dat.leavesExact; rw [show cfg0.idle 4 (cfg0.grid.coords t) = false from rfl, after0_4]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any point. The inputs' buffers hold their blocks. Where the point sits among the presynaptic blocks
    decides the case: at a first block the scratch row is taken at whatever it holds and the sum restarts; elsewhere
    it is taken at the running sum of the point before, and the recursion equation says the result is the running sum
    here. The spikes' buffer is handed back as found except at a last block, where it receives the spikes' block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = iprop(owns (c : Thread nD τ) scratchRow fullShare (runningSum V c t.val t.isLt)
      ∗ ((∃ d, owns (c : Thread nD τ) scratchRow fullShare d) -∗ Pipeline.ΦA spec0 c)) from rfl,
    sumInv_castSucc, leaves_in0, leaves_in1, leaves_in2, leaves_in3, leaves_in4]
  have hN : t.val < 32 := lt_of_lt_of_eq t.isLt (show cfg0.N = 32 from N_0)
  by_cases h0 : t.val % 8 = 0
  · have hc0 : atFirstK (grid0.coords t) := (atFirstK_iff t).mpr h0
    have hc1 : ¬atLastK (grid0.coords t) := fun h => by have := (atLastK_iff t).mp h; omega
    rw [Dat.leavesExact_idle (dat0 V c) 5 t (spikes_idle t hc1) (spikes_unflushed t hc1), runningSum_first V c t h0]
    iintro ⟨HΦ, Ho, ⟨%d0, H0⟩, ⟨%d1, H1⟩, ⟨%d2, H2⟩, ⟨%d3, H3⟩, ⟨%d4, H4⟩, ⟨%d5, H5⟩⟩
    have hforget := sumInv_forget V c t.val (Nat.le_of_lt t.isLt)
    ihave HΦ' := hforget $$ HΦ
    icases HΦ' with ⟨Hs, Hw⟩
    iapply (body_first c Set.univ _ _ _ _ _ _ _ _ _ _ _ _ _ _ _ hc0 hc1 (iblk0 V c 0 t) (iblk0 V c 1 t) (iblk0 V c 2 t) (iblk0 V c 3 t) (iblk0 V c 4 t) ((dat0 V c).before 5 t d5) _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hw]
    · isplitl [Hs]; · iexact Hs
      iexact Hw
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    have hc0 : ¬atFirstK (grid0.coords t) := fun h => h0 ((atFirstK_iff t).mp h)
    rw [sumInv_pos V c _ _ hz, runningSum_next V c t h0]
    by_cases h1 : t.val % 8 = 7
    · have hc1 : atLastK (grid0.coords t) := (atLastK_iff t).mpr h1
      rw [show (dat0 V c).leavesExact 5 t = owns (c : Thread nD τ) (st0_5 t) fullShare ((dat0 V c).after 5 t) from by
        unfold Dat.leavesExact; rw [spikes_live t hc1], after0_5]
      unfold spikesBlock
      rw [runningSum_next V c t h0]
      iintro ⟨⟨Hs, Hw⟩, Ho, ⟨%d0, H0⟩, ⟨%d1, H1⟩, ⟨%d2, H2⟩, ⟨%d3, H3⟩, ⟨%d4, H4⟩, ⟨%d5, H5⟩⟩
      iapply (body_last c Set.univ _ _ _ _ _ _ _ _ _ _ _ _ _ _ _ hc0 hc1 (iblk0 V c 0 t) (iblk0 V c 1 t) (iblk0 V c 2 t) (iblk0 V c 3 t) (iblk0 V c 4 t) (runningSum V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [Hs]; · iexact Hs
      iintro ⟨H0, H1, H2, H3, H4, H5, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      isplitl [H4]; · iexact H4
      iexact H5
    · have hc1 : ¬atLastK (grid0.coords t) := fun h => h1 ((atLastK_iff t).mp h)
      rw [Dat.leavesExact_idle (dat0 V c) 5 t (spikes_idle t hc1) (spikes_unflushed t hc1)]
      iintro ⟨⟨Hs, Hw⟩, Ho, ⟨%d0, H0⟩, ⟨%d1, H1⟩, ⟨%d2, H2⟩, ⟨%d3, H3⟩, ⟨%d4, H4⟩, ⟨%d5, H5⟩⟩
      iapply (body_middle c Set.univ _ _ _ _ _ _ _ _ _ _ _ _ _ _ _ hc0 hc1 (iblk0 V c 0 t) (iblk0 V c 1 t) (iblk0 V c 2 t) (iblk0 V c 3 t) (iblk0 V c 4 t) ((dat0 V c).before 5 t d5) (runningSum V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem inv_first (c : Dev nD) : (dat0 V c).Φ 0 = Pipeline.ΦA spec0 c := rfl

/-- After the last point the invariant gives the class's back: the scratch row's contents are forgotten. -/
theorem inv_last (c : Dev nD) : (dat0 V c).Φ (Fin.last cfg0.N) ⊢ Pipeline.ΦA spec0 c := by
  rw [show (dat0 V c).Φ (Fin.last cfg0.N) = sumInv V c cfg0.N (Nat.le_refl _) from rfl,
    sumInv_pos V c _ _ (by rw [show cfg0.N = 32 from N_0]; decide)]
  iintro ⟨Hs, Hw⟩
  iapply Hw
  iexists _; iexact Hs

end Cert.Kernel.Hand

end
-- ==== Proof.BitsOuter.lean ====
/-
  The second pallas_call of the program is the outer-product kernel: on a 16 × 4 grid, point (i, j) takes rows
  512·i … 512·i+511 of the four column vectors (the two traces and the two presynaptic activities) and columns
  2048·j … 2048·j+2047 of the spike row, and fills one 512 × 2048 tile of each weight update with

      (trace · decay + activity) ⊗ spikes.

  This module is the body half of that call's frame, at ANY float instance `F` and at ANY contents `V` of the
  TensorCore's buffers on entry to the call:
  * what each of the seven windows' staging buffers holds around the body at a grid point — the five inputs their
    blocks (whether the pipeline refetched them at the point or not: the column blocks move only when the row index
    `i` moves), the two outputs the tile above, written as the canonical contents of ONE store over the whole buffer;
  * the body's Hoare triple: five whole loads, then for each output a load of the buffer as it stands (the value is
    dropped, so the buffer may hold anything) followed by one store covering it;
  * the pipeline's proof data for the call and the library's body obligation for it.
-/
import proofs.«157642_j27358941675618_2_alg».proof.Proof.Gen.Kernel.Launch
import proofs.«157642_j27358941675618_2_alg».proof.Proof.Gen.Kernel.Skeleton
import proofs.«157642_j27358941675618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the outer-product call finds them
variable (V : (c : Dev nD) → (b : Ref sig .tc) → Buf (Elt F) ((c : Thread nD τ).loc b))

/-! ## A window's block at a grid point -/

/-- The block of window `w` at point `t`: the sub-rectangle of the window's array (at its entry contents) that the
    window's index map selects there — 512 rows of a column vector, 2048 columns of the spike row, or a 512 × 2048
    tile of a weight update. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' buffers hold their blocks at every point

The four column windows depend on the row index `i` only, so the pipeline fetches them when `i` moves (every fourth
point) and leaves the buffer alone in between; the spike window is fetched at every point. Either way the body finds
the window's block: a buffer that was not refetched still holds the previous point's block, and the block index has
not moved. Each statement is about ANY proof data over `V`'s arrays whose body leaves the input where it was. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ s, (cfg1.win 0).cut (cfg1.grid.coords s) (dat.after 0 s) = dat.blockOf 0 s := by
    intro s; rw [hafter s]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ s, (cfg1.win 1).cut (cfg1.grid.coords s) (dat.after 1 s) = dat.blockOf 1 s := by
    intro s; rw [hafter s]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ s, (cfg1.win 2).cut (cfg1.grid.coords s) (dat.after 2 s) = dat.blockOf 2 s := by
    intro s; rw [hafter s]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ s, (cfg1.win 3).cut (cfg1.grid.coords s) (dat.after 3 s) = dat.blockOf 3 s := by
    intro s; rw [hafter s]; unfold Dat.blockOf iblk1; rw [hA]; try rfl
  rw [dat.before_in_eq_fetched 3 rfl (fun _ => rfl) (fun _ _ _ => rfl) hkeep t d]
  unfold Dat.fetched Dat.blockOf iblk1; rw [hA]; try rfl

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ s, (cfg1.win 4).cut (cfg1.grid.coords s) (dat.after 4 s) = dat.blockOf 4 s := by
    intro s; rw [hafter s]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body's three rectangles: every access is of a whole buffer -/

/-- All 512 rows of a column block. -/
abbrev wholeCol : Rect S512x1 := Rect.unit (s := S512x1) ![0, 0] S512x1.size inb_S512x1_S512x1_0_0
/-- All 2048 entries of the spike block. -/
abbrev wholeRow : Rect S1x2048 := Rect.unit (s := S1x2048) ![0, 0] S1x2048.size inb_S1x2048_S1x2048_0_0
/-- The whole 512 × 2048 output tile. -/
abbrev wholeTile : Rect S512x2048 := Rect.unit (s := S512x2048) ![0, 0] S512x2048.size inb_S512x2048_S512x2048_0_0

/-! ## What the body leaves in the two output buffers -/

/-- The first weight update's tile: one store over the whole buffer of (trace₁ · decay + x) ⊗ s, computed from the
    loads of the first trace's block `x0`, the first activity's block `x1` and the spike block `x4`. -/
def out1_5 (x0 x1 : Vec F S512x1 .f32) (x4 : Vec F S1x2048 .f32) : Vec F S512x2048 .f32 :=
  View.canon [⟨wholeTile, k1_pay2 (View.ld x0 wholeCol) (View.ld x1 wholeCol) (View.ld x4 wholeRow)⟩]

/-- The second weight update's tile: the same from the second trace's block `x2` and the second activity's `x3`. -/
def out1_6 (x2 x3 : Vec F S512x1 .f32) (x4 : Vec F S1x2048 .f32) : Vec F S512x2048 .f32 :=
  View.canon [⟨wholeTile, k1_pay3 (View.ld x2 wholeCol) (View.ld x3 wholeCol) (View.ld x4 wholeRow)⟩]

/-- A single store through the whole-tile rectangle reaches every index of the tile. -/
theorem wholeTile_covers (p : Vec F S512x2048 .f32) (y : S512x2048.Idx) :
    ∃ pc ∈ ([⟨wholeTile, p⟩] : List (View.Piece (Elt F) S512x2048 .f32)), y ∈ pc.1.set :=
  View.cover_of_tiled [⟨wholeTile, p⟩] S512x2048.size (by rfl) y

/-! ## The body's triple -/

set_option maxHeartbeats 1000000 in
/-- The kernel function on seven whole staging memrefs: the five inputs' reading `x0 … x4`, the two outputs' holding
    anything. It runs to its continuation with the inputs as they were and the outputs at `out1_5` and `out1_6` of the
    inputs. The body does load each output buffer just before it overwrites it; the loaded value feeds nothing, so
    whatever the buffer held is read and forgotten. -/
theorem sound_kernel1 (c : Dev nD) (E : Set ℕ) (i : grid1.Coords)
    (arg0 : Memref sig .tc .vmem S512x1 .f32) (harg0 : arg0.IsWhole) (arg1 : Memref sig .tc .vmem S512x1 .f32) (harg1 : arg1.IsWhole)
    (arg2 : Memref sig .tc .vmem S512x1 .f32) (harg2 : arg2.IsWhole) (arg3 : Memref sig .tc .vmem S512x1 .f32) (harg3 : arg3.IsWhole)
    (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 x1 x2 x3 : Vec F S512x1 .f32) (x4 : Vec F S1x2048 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out1_5 x0 x1 x4)
            ∗ owns (c : Thread nD τ) arg6 fullShare (out1_6 x2 x3 x4)) -∗ K ⟨⟩))
      ⊢ wp frame (wpE (defs₀ (F := F)) Variants.none c none) E
          (cc1__kernel_b i arg0 harg0 arg1 harg1 arg2 harg2 arg3 harg3 arg4 harg4 arg5 harg5 arg6 harg6) K := by
  simp only [cc1__kernel_b_eq_skeleton]; unfold cc1__kernel_b_skel
  unfold owns
  iintro ⟨⟨%f0, %e0, H0⟩, ⟨%f1, %e1, H1⟩, ⟨%f2, %e2, H2⟩, ⟨%f3, %e3, H3⟩, ⟨%f4, %e4, H4⟩,
    ⟨%d5, %f5, -, H5⟩, ⟨%d6, %f6, -, H6⟩, Hk⟩
  subst e0 e1 e2 e3 e4
  sl_exec
  sl_step
  iapply Hk
  -- the five inputs go back untouched
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  -- each output holds its one whole store over whatever was there: read back, that is the store's canon
  isplitl [H5]
  · iexists _; isplitr
    swap; · iexact H5
    ipureintro
    exact View.read_writes_eq_canon _ _ _ (wholeTile_covers _)
  iexists _; isplitr
  swap; · iexact H6
  ipureintro
  exact View.read_writes_eq_canon _ _ _ (wholeTile_covers _)

/-! ## The proof data of the call -/

/-- The pipeline's proof data for the outer-product call on core `c`: each window's array at its entry contents;
    after the body at point `t` every input buffer still at its block and the two output buffers at the tiles
    `out1_5`, `out1_6` of the input blocks there; the invariant is the plain one (the scoped buffers outside the call
    and the generator register ride along untouched); all shares full; no core owes another anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 4 t)
    | ⟨6, _⟩ => out1_6 (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves in each window's buffer, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 4 t) := by dsimp only [dat1]
theorem after1_6 (c : Dev nD) (t : Fin cfg1.N) :
    (dat1 V c).after 6 t = out1_6 (iblk1 V c 2 t) (iblk1 V c 3 t) (iblk1 V c 4 t) := by dsimp only [dat1]

/-- So at every point, refetched or not, each input buffer holds its block when the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the pipeline hands the body at point `t`: the invariant, the core's debts (none), and each window's current
    staging buffer at whatever the schedule left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it takes back: the same with every buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the five input buffers hold their blocks, so the kernel's triple applies with those
    blocks as `x0 … x4`; the invariant and the core's (empty) debts are not looked at and do not depend on the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the call: the statement above at every point, the windows conjoined one by one. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
import proofs.«157642_j27358941675618_2_alg».proof.Proof.BitsSpikePoints
import proofs.«157642_j27358941675618_2_alg».proof.Proof.BitsOuter
import proofs.«157642_j27358941675618_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: the spike region, four reshapes, the outer-product region

What the TensorCore's unscoped buffers hold at each boundary, a fold from the launch memory: the spike region leaves
its arrays at what its write-backs make of them and every other buffer alone; the reshapes write the four column
copies; the outer-product region again changes only its own arrays. -/

/-- Core `c`'s buffers at launch, -/
abbrev atLaunch (c : Dev nD) : Valuation τ sig (Elt F) := fun b => m (c, b)
/-- read at the TensorCore's references: what the spike region's proof data take. -/
abbrev spikesEntry : (c : Dev nD) → (b : Ref sig .tc) → Buf (Elt F) ((c : Thread nD τ).loc b) := fun c b => atLaunch m c b

/-- After the spike region: its arrays at what the pipeline leaves, every other buffer as entered. -/
def afterSpikes (c : Dev nD) : Valuation τ sig (Elt F) :=
  Pipeline.withArrays spec0 c (atLaunch m c) fun w => (dat0 (spikesEntry m) c).arrAt w cfg0.N
theorem afterSpikes_arr (c : Dev nD) (w : Fin cfg0.W) :
    afterSpikes m c (Proc.devRef .tc (Pipeline.arrRef spec0 w)) = (dat0 (spikesEntry m) c).arrAt w cfg0.N := by
  unfold afterSpikes; exact Pipeline.withArrays_arr spec0 launch0.win.arr_inj c _ _ w
theorem afterSpikes_of_ne (c : Dev nD) (b : Ref sig .tc) (hb : ∀ w, Pipeline.arrRef spec0 w ≠ b) :
    afterSpikes m c (Proc.devRef .tc b) = atLaunch m c (Proc.devRef .tc b) := by
  unfold afterSpikes; exact Pipeline.withArrays_of_ne spec0 c _ _ b hb
abbrev spikesExit : (c : Dev nD) → (b : Ref sig .tc) → Buf (Elt F) ((c : Thread nD τ).loc b) := fun c b => afterSpikes m c b
theorem spikes_arrays (c : Dev nD) (w : Fin cfg0.W) : (dat0 (spikesEntry m) c).arrAt w cfg0.N = spikesExit m c (Pipeline.arrRef spec0 w) :=
  (afterSpikes_arr m c w).symm
theorem spikes_others (c : Dev nD) : ∀ b, b ∉ Finset.univ.image (Pipeline.arrRef spec0) → spikesExit m c b = spikesEntry m c b :=
  fun b hb => afterSpikes_of_ne m c b fun w e => hb (Finset.mem_image.mpr ⟨w, Finset.mem_univ _, e⟩)

/-- After the four reshapes, -/
abbrev afterReshapes (c : Dev nD) : Valuation τ sig (Elt F) := StableHlo.after hostOps1 (afterSpikes m c)
/-- which is what the outer-product region's proof data take. -/
abbrev outerEntry : (c : Dev nD) → (b : Ref sig .tc) → Buf (Elt F) ((c : Thread nD τ).loc b) := fun c b => afterReshapes m c b
/-- A buffer that is none of the four column copies passes the reshapes unchanged. -/
theorem reshapes_keep (c : Dev nD) (b : Ref sig .tc) (hb : b ∉ hostOps1_W) :
    afterReshapes m c (Proc.devRef .tc b) = afterSpikes m c (Proc.devRef .tc b) :=
  StableHlo.after_of_writes_sub hostOps1 _ hostOps1_writes hb

/-- After the outer-product region: its arrays at what the pipeline leaves, every other buffer as entered. -/
def atEnd (c : Dev nD) : Valuation τ sig (Elt F) :=
  Pipeline.withArrays spec1 c (afterReshapes m c) fun w => (dat1 (outerEntry m) c).arrAt w cfg1.N
theorem atEnd_arr (c : Dev nD) (w : Fin cfg1.W) :
    atEnd m c (Proc.devRef .tc (Pipeline.arrRef spec1 w)) = (dat1 (outerEntry m) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m c (Proc.devRef .tc b) = afterReshapes m c (Proc.devRef .tc b) := by
  unfold atEnd; exact Pipeline.withArrays_of_ne spec1 c _ _ b hb
abbrev outerExit : (c : Dev nD) → (b : Ref sig .tc) → Buf (Elt F) ((c : Thread nD τ).loc b) := fun c b => atEnd m c b
theorem outer_arrays (c : Dev nD) (w : Fin cfg1.W) : (dat1 (outerEntry m) c).arrAt w cfg1.N = outerExit m c (Pipeline.arrRef spec1 w) :=
  (atEnd_arr m c w).symm
theorem outer_others (c : Dev nD) : ∀ b, b ∉ Finset.univ.image (Pipeline.arrRef spec1) → outerExit m c b = outerEntry m c b :=
  fun b hb => atEnd_of_ne m c b fun w e => hb (Finset.mem_image.mpr ⟨w, Finset.mem_univ _, e⟩)

/-! ## The arguments end as launched -/

/-- `main_arg0` ends as launched: the spike region only reads it (window 0), and no reshape writes it. -/
theorem atEnd_main_arg0 (c : Dev nD) : atEnd m c (Proc.devRef .tc main_arg0) = m ((c : Thread nD τ).loc main_arg0) :=
  calc atEnd m c (Proc.devRef .tc main_arg0)
    _ = afterReshapes m c (Proc.devRef .tc main_arg0) := atEnd_of_ne m c main_arg0 (by decide)
    _ = afterSpikes m c (Proc.devRef .tc main_arg0) := reshapes_keep m c main_arg0 (by decide)
    _ = atLaunch m c (Proc.devRef .tc main_arg0) := (afterSpikes_arr m c 0).trans (((dat0 (spikesEntry m) c).arrAt_in 0 rfl _).trans (A_eq0 (spikesEntry m) c 0))
    _ = m ((c : Thread nD τ).loc main_arg0) := rfl

/-- `main_arg1` ends as launched: the spike region only reads it (window 1), and no reshape writes it. -/
theorem atEnd_main_arg1 (c : Dev nD) : atEnd m c (Proc.devRef .tc main_arg1) = m ((c : Thread nD τ).loc main_arg1) :=
  calc atEnd m c (Proc.devRef .tc main_arg1)
    _ = afterReshapes m c (Proc.devRef .tc main_arg1) := atEnd_of_ne m c main_arg1 (by decide)
    _ = afterSpikes m c (Proc.devRef .tc main_arg1) := reshapes_keep m c main_arg1 (by decide)
    _ = atLaunch m c (Proc.devRef .tc main_arg1) := (afterSpikes_arr m c 1).trans (((dat0 (spikesEntry m) c).arrAt_in 1 rfl _).trans (A_eq0 (spikesEntry m) c 1))
    _ = m ((c : Thread nD τ).loc main_arg1) := rfl

/-- `main_arg2` ends as launched: the spike region only reads it (window 4), and no reshape writes it. -/
theorem atEnd_main_arg2 (c : Dev nD) : atEnd m c (Proc.devRef .tc main_arg2) = m ((c : Thread nD τ).loc main_arg2) :=
  calc atEnd m c (Proc.devRef .tc main_arg2)
    _ = afterReshapes m c (Proc.devRef .tc main_arg2) := atEnd_of_ne m c main_arg2 (by decide)
    _ = afterSpikes m c (Proc.devRef .tc main_arg2) := reshapes_keep m c main_arg2 (by decide)
    _ = atLaunch m c (Proc.devRef .tc main_arg2) := (afterSpikes_arr m c 4).trans (((dat0 (spikesEntry m) c).arrAt_in 4 rfl _).trans (A_eq0 (spikesEntry m) c 4))
    _ = m ((c : Thread nD τ).loc main_arg2) := rfl

/-- `main_arg3` ends as launched: no window of either region is on it, and no reshape writes it. -/
theorem atEnd_main_arg3 (c : Dev nD) : atEnd m c (Proc.devRef .tc main_arg3) = m ((c : Thread nD τ).loc main_arg3) :=
  calc atEnd m c (Proc.devRef .tc main_arg3)
    _ = afterReshapes m c (Proc.devRef .tc main_arg3) := atEnd_of_ne m c main_arg3 (by decide)
    _ = afterSpikes m c (Proc.devRef .tc main_arg3) := reshapes_keep m c main_arg3 (by decide)
    _ = atLaunch m c (Proc.devRef .tc main_arg3) := afterSpikes_of_ne m c main_arg3 (by decide)
    _ = m ((c : Thread nD τ).loc main_arg3) := rfl

/-- `main_arg4` ends as launched: no window of either region is on it, and no reshape writes it. -/
theorem atEnd_main_arg4 (c : Dev nD) : atEnd m c (Proc.devRef .tc main_arg4) = m ((c : Thread nD τ).loc main_arg4) :=
  calc atEnd m c (Proc.devRef .tc main_arg4)
    _ = afterReshapes m c (Proc.devRef .tc main_arg4) := atEnd_of_ne m c main_arg4 (by decide)
    _ = afterSpikes m c (Proc.devRef .tc main_arg4) := reshapes_keep m c main_arg4 (by decide)
    _ = atLaunch m c (Proc.devRef .tc main_arg4) := afterSpikes_of_ne m c main_arg4 (by decide)
    _ = m ((c : Thread nD τ).loc main_arg4) := rfl

/-- `main_arg5` ends as launched: the spike region only reads it (window 2), and no reshape writes it. -/
theorem atEnd_main_arg5 (c : Dev nD) : atEnd m c (Proc.devRef .tc main_arg5) = m ((c : Thread nD τ).loc main_arg5) :=
  calc atEnd m c (Proc.devRef .tc main_arg5)
    _ = afterReshapes m c (Proc.devRef .tc main_arg5) := atEnd_of_ne m c main_arg5 (by decide)
    _ = afterSpikes m c (Proc.devRef .tc main_arg5) := reshapes_keep m c main_arg5 (by decide)
    _ = atLaunch m c (Proc.devRef .tc main_arg5) := (afterSpikes_arr m c 2).trans (((dat0 (spikesEntry m) c).arrAt_in 2 rfl _).trans (A_eq0 (spikesEntry m) c 2))
    _ = m ((c : Thread nD τ).loc main_arg5) := rfl

/-- `main_arg6` ends as launched: the spike region only reads it (window 3), and no reshape writes it. -/
theorem atEnd_main_arg6 (c : Dev nD) : atEnd m c (Proc.devRef .tc main_arg6) = m ((c : Thread nD τ).loc main_arg6) :=
  calc atEnd m c (Proc.devRef .tc main_arg6)
    _ = afterReshapes m c (Proc.devRef .tc main_arg6) := atEnd_of_ne m c main_arg6 (by decide)
    _ = afterSpikes m c (Proc.devRef .tc main_arg6) := reshapes_keep m c main_arg6 (by decide)
    _ = atLaunch m c (Proc.devRef .tc main_arg6) := (afterSpikes_arr m c 3).trans (((dat0 (spikesEntry m) c).arrAt_in 3 rfl _).trans (A_eq0 (spikesEntry m) c 3))
    _ = m ((c : Thread nD τ).loc main_arg6) := rfl

/-! ## The results at the end -/

/-- The spikes at the end are what the spike region left: the outer-product region only reads them, and no reshape
    writes them. -/
theorem atEnd_spikes (c : Dev nD) : atEnd m c (Proc.devRef .tc main_v0) = (dat0 (spikesEntry m) c).arrAt 5 cfg0.N :=
  calc atEnd m c (Proc.devRef .tc main_v0)
    _ = afterReshapes m c (Proc.devRef .tc main_v0) := (atEnd_arr m c 4).trans (((dat1 (outerEntry m) c).arrAt_in 4 rfl _).trans (A_eq1 (outerEntry m) c 4))
    _ = afterSpikes m c (Proc.devRef .tc main_v0) := reshapes_keep m c main_v0 (by decide)
    _ = (dat0 (spikesEntry m) c).arrAt 5 cfg0.N := afterSpikes_arr m c 5
/-- The two weight updates at the end are what the outer-product region's write-backs left. -/
theorem atEnd_dw1 (c : Dev nD) : atEnd m c (Proc.devRef .tc main_v5_0) = (dat1 (outerEntry m) c).arrAt 5 cfg1.N := atEnd_arr m c 5
theorem atEnd_dw2 (c : Dev nD) : atEnd m c (Proc.devRef .tc main_v5_1) = (dat1 (outerEntry m) c).arrAt 6 cfg1.N := atEnd_arr m c 6

/-! ## The regions as segments of the program -/

/-- No pipeline has a prefetched table. -/
abbrev noTables : (p : Fin 2) → (pcfgs (F := F) p).Adm := fun p => (cfgs p).toPCfg_adm
/-- Each pipeline's proof data at its region's entry contents. -/
def proofData : (p : Fin 2) → (c : Dev nD) → Dat τ (Elt F) Unit ℕ (UR sig nD τ) ℕ (Pipeline.pin (pcfgs (F := F)) noTables p) c
  | ⟨0, _⟩ => fun c => dat0 (spikesEntry m) c
  | ⟨1, _⟩ => fun c => dat1 (outerEntry m) c
abbrev noVariants : Variants := Variants.none
/-- No core owes another anything. -/
abbrev noPairs : GSem nD τ sig → Finset Unit := fun _ => ∅
abbrev noLevels : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- The last thread state, without what is owed. -/
abbrev lastState (c : Dev nD) : sProp 𝕄 := iprop(StableHlo.held (c : Thread nD τ) (Pipeline.ucRefs τ sig) (atEnd m c) ∗ ∃ r, prngReg c r)
/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The reshapes as a segment from the contents the spike region left. -/
abbrev reshapesSeg : Pipeline.HostSeg (Name := ℕ) (U := UR sig nD τ) (pcfgs (F := F)) defs₀ noVariants noPairs noLevels :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (afterSpikes m) riding

set_option backward.isDefEq.respectTransparency.types false in
def region0 : Pipeline.RegionSeg (pcfgs (F := F)) noTables (proofData m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (spikesEntry m) c).loose
  hwaits := Pipeline.hwaits_of_owed_zero _ _ _ _ noPairs noLevels 0 fun _ _ => rfl
  pre c := iprop(StableHlo.held (c : Thread nD τ) (Pipeline.ucRefs τ sig) (atLaunch m c) ∗ riding c)
  post c := iprop(StableHlo.held (c : Thread nD τ) (Pipeline.ucRefs τ sig) (afterSpikes m c) ∗ riding c)
  X c := iprop(∃ r, prngReg c r)
  Y c := iprop(∃ r, prngReg c r)
  Z c := Pipeline.unscopedRest (Ix := Unit) (Name := ℕ) (U := UR sig nD τ) (Lvl := ℕ) spec0 c (spikesEntry m c)
  hentry c := by
    rw [Pipeline.ownSems0_none]
    have hsplit := Pipeline.arrays_of_unscopedBufs (p := 0) (pcfgs (F := F)) noTables (proofData m) launch0.win launch0.arr_whole c
      ((proofData m 0 c).share_full fun _ => rfl) (spikesEntry m c) fun _ => rfl
    rw [Pipeline.unscopedBufs_held] at hsplit
    iintro ⟨⟨Hbufs, Hgen, Howes⟩, -, -⟩
    ihave Hsplit := hsplit $$ Hbufs
    icases Hsplit with ⟨Harr, Hother⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr
      · ipureintro; exact fun _ _ => Or.inl trivial
      iexact Howes
    isplitl [Hgen]; · iexact Hgen
    iexact Hother
  hin c := by
    rw [show (proofData m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none]
    refine (inv_last (spikesEntry m) c).trans ?_
    unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) noTables (Ix := Unit) (Name := ℕ) (U := UR sig nD τ) (Lvl := ℕ)
      launch0.win launch0.arr_whole c (proofData m) ((proofData m 0 c).share_full fun _ => rfl)
      (spikesEntry m c) (spikesExit m c) ((proofData m 0 c).arrAt · cfg0.N) (spikes_arrays m c) (spikes_others m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
def region1 : Pipeline.RegionSeg (pcfgs (F := F)) noTables (proofData m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (outerEntry m) c).loose
  hwaits := Pipeline.hwaits_of_owed_zero _ _ _ _ noPairs noLevels 1 fun _ _ => rfl
  pre c := iprop(StableHlo.held (c : Thread nD τ) (Pipeline.ucRefs τ sig) (afterReshapes m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (outerEntry m c)
  hentry c := by
    rw [Pipeline.ownSems0_none]
    have hsplit := Pipeline.arrays_of_unscopedBufs (p := 1) (pcfgs (F := F)) noTables (proofData m) launch1.win launch1.arr_whole c
      ((proofData m 1 c).share_full fun _ => rfl) (outerEntry m c) fun _ => rfl
    rw [Pipeline.unscopedBufs_held] at hsplit
    iintro ⟨⟨Hbufs, Hgen, Howes⟩, -, -⟩
    ihave Hsplit := hsplit $$ Hbufs
    icases Hsplit with ⟨Harr, Hother⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr
      · ipureintro; exact fun _ _ => Or.inl trivial
      iexact Howes
    isplitl [Hgen]; · iexact Hgen
    iexact Hother
  hin c := by
    rw [show (proofData m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none]
    refine ((show (proofData m 1 c).Φ (Fin.last _) ⊢ Pipeline.ΦA spec1 c from .rfl)).trans ?_
    unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) noTables (Ix := Unit) (Name := ℕ) (U := UR sig nD τ) (Lvl := ℕ)
      launch1.win launch1.arr_whole c (proofData m) ((proofData m 1 c).share_full fun _ => rfl)
      (outerEntry m c) (outerExit m c) ((proofData m 1 c).arrAt · cfg1.N) (outer_arrays m c) (outer_others m c)
    rw [Pipeline.unscopedBufs_held] at hjoin
    iintro ⟨Harr, Howes, Hgen, Hother⟩
    imodintro
    isplitl [Harr Hother Hgen]
    · isplitl [Harr Hother]
      · iapply hjoin; isplitl [Harr] <;> iassumption
      iexact Hgen
    unfold Pipeline.Dat.owesAt Pipeline.owesWithin
    icases Howes with ⟨%W, -, Howes⟩; iexists W; iexact Howes

/-! ## The run -/

/-- The program's three segments in order. -/
abbrev mainSegments : List (Pipeline.Seg (pcfgs (F := F)) noTables (proofData m) () defs₀ noVariants noPairs noLevels) :=
  [ .region (region0 m), .host (reshapesSeg m), .region (region1 m) ]
theorem main_is_segments (c : Dev nD) : main (F := F) c = Pipeline.Seg.run (mainSegments m) := (main_chain c).trans (by chain_rfl)

set_option backward.isDefEq.respectTransparency.types false in
/-- From any memory with zero counters every weakly fair execution of the program terminates, nothing faulting, and
    every final state holds every unscoped buffer of every core at `atEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) noTables (proofData m) () cellOf_inj emb₁ defs₀ noVariants noPairs noLevels m ρ main (mainSegments m)
    (fun c Q => by rw [main_is_segments m c])
    (by simp only [mainSegments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ riding c)) (Tₙ := lastState m)
    (hch := ⟨fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = atEnd m c b)
    (hfin := fun c s' => by
      iintro ⟨⟨Hbufs, -⟩, HSI⟩
      unfold StableHlo.held
      imodintro
      iapply (pointsTo_read_all (Pipeline.ucRefs τ sig) (fun b => (((c : Thread nD τ)).1, b)) (atEnd m c) s')
      isplitl [Hbufs] <;> iassumption)
    (hQ := fun _ h => h)

/-- The program runs to the end, nothing faulting, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (held_ref main_arg0 (by decide))).trans (atEnd_main_arg0 m c),
      (h c _ (held_ref main_arg1 (by decide))).trans (atEnd_main_arg1 m c),
      (h c _ (held_ref main_arg2 (by decide))).trans (atEnd_main_arg2 m c),
      (h c _ (held_ref main_arg3 (by decide))).trans (atEnd_main_arg3 m c),
      (h c _ (held_ref main_arg4 (by decide))).trans (atEnd_main_arg4 m c),
      (h c _ (held_ref main_arg5 (by decide))).trans (atEnd_main_arg5 m c),
      (h c _ (held_ref main_arg6 (by decide))).trans (atEnd_main_arg6 m c)⟩) (run_all m ρ)

end Cert.Kernel.Hand

end
-- ==== Proof.IdealSpikeBody.lean ====
import proofs.«157642_j27358941675618_2_alg».proof.Proof.Gen.KernelIdeal.Launch
import proofs.«157642_j27358941675618_2_alg».proof.Proof.Gen.KernelIdeal.Skeleton
import proofs.«157642_j27358941675618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The spike kernel's body, one grid point at a time

The grid is 4 column blocks of 2048 neurons by 8 blocks of 1024 presynaptic indices, the presynaptic axis the fast
one. At a point the body adds to a running sum, kept in a scratch row of 2048 entries, the two partial products of
this point's blocks: the external drive's block times its weight block plus the recurrent drive's block times its
weight block. At the first presynaptic block the running sum is first set to zero; at the last one the membrane
potentials' block is added and the result compared with the threshold, which gives this column block's spikes.
So a point is in one of three cases, and each case is a triple over the values its buffers hold. -/

/-- The point is at the first presynaptic block: the body's first condition, as the kernel computes it. -/
abbrev atFirstK (i : grid0.Coords) : Prop :=
  (Scalar.cmpi .ne (Scalar.extui (Scalar.cmpi .eq (BitVec.ofNat 32 (i 1).val) 0#32)) 0#32) = 1#1
/-- The point is at the last presynaptic block: the body's second condition. -/
abbrev atLastK (i : grid0.Coords) : Prop := k0_cond2 i = 1#1

/-- A rectangle's corner written `![0, 0]` is the zero offset. -/
theorem corner_zero : (![0, 0] : Fin 2 → Nat) = fun _ => 0 := by
  funext a; fin_cases a <;> rfl

/-- The running sum after a point: what it was, plus this point's two partial products. -/
abbrev addPartials (acc : Vec F S1x2048 .f32) (x0 x1 : Vec F S1x1024 .f32) (x2 x3 : Vec F S1024x2048 .f32) : Vec F S1x2048 .f32 :=
  k0_pay2 acc x0 x2 x1 x3

set_option maxHeartbeats 1000000 in
/-- A point strictly between the first and the last presynaptic block: the inputs and the idle output buffer are
    handed back as found, and the running sum gains this point's partial products. -/
theorem body_middle (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬atFirstK i) (hc1 : ¬atLastK i)
    (x0 x1 : Vec F S1x1024 .f32) (x2 x3 : Vec F S1024x2048 .f32) (x4 xi xs : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
            ∗ owns (c : Thread nD τ) arg8 fullShare (addPartials xs x0 x1 x2 x3)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  iexists _; isplitr
  swap; · iexact H6
  ipureintro
  rw [View.read_writes_eq_canon _ _ _ (fun y => ⟨_, List.mem_singleton_self _, View.mem_set_unit_zero corner_zero inb_S1x2048_S1x2048_0_0 y⟩),
    View.canon_unit_zero corner_zero]
  simp only [View.readAt_eq_ld, harg2.read_unread, harg3.read_unread, harg4.read_unread, harg5.read_unread, harg8.read_unread,
    View.ld_unit_zero (S := S1x2048) corner_zero, View.ld_unit_zero (S := S1x1024) corner_zero,
    View.ld_unit_zero (S := S1024x2048) corner_zero]

set_option maxHeartbeats 1000000 in
/-- A point at the first presynaptic block (and not the last): whatever the scratch held, it is set to zero and
    then gains this point's partial products. -/
theorem body_first (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : atFirstK i) (hc1 : ¬atLastK i)
    (x0 x1 : Vec F S1x1024 .f32) (x2 x3 : Vec F S1024x2048 .f32) (x4 xi : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi
            ∗ owns (c : Thread nD τ) arg8 fullShare (addPartials k0_pay1 x0 x1 x2 x3)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  iexists _; isplitr
  swap; · iexact H6
  ipureintro
  sl_unfold_run_names
  rw [View.read_writes_eq_canon _ _ _ (fun y => ⟨_, List.mem_cons.mpr (Or.inl rfl), View.mem_set_unit_zero corner_zero inb_S1x2048_S1x2048_0_0 y⟩),
    View.canon_cons_unit_zero corner_zero]
  simp only [View.readCov_unit_zero (S := S1x2048) _ corner_zero, View.readAt_eq_ld, harg2.read_unread, harg3.read_unread, harg4.read_unread,
    harg5.read_unread, harg6.read_unread, harg8.read_unread,
    View.ld_unit_zero (S := S1x2048) corner_zero, View.ld_unit_zero (S := S1x1024) corner_zero,
    View.ld_unit_zero (S := S1024x2048) corner_zero]

set_option maxHeartbeats 1000000 in
/-- A point at the last presynaptic block (and not the first): the running sum gains this point's partial products,
    and the output buffer, whatever it held, receives the threshold comparison of the potentials' block plus
    that final sum. -/
theorem body_last (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬atFirstK i) (hc1 : atLastK i)
    (x0 x1 : Vec F S1x1024 .f32) (x2 x3 : Vec F S1024x2048 .f32) (x4 xs : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k0_pay3 x4 (addPartials xs x0 x1 x2 x3))
            ∗ owns (c : Thread nD τ) arg8 fullShare (addPartials xs x0 x1 x2 x3)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf6
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    swap; · iexact H5
    ipureintro
    sl_unfold_run_names
    rw [View.read_writes_eq_canon _ _ _ (fun y => ⟨_, List.mem_singleton_self _, View.mem_set_unit_zero corner_zero inb_S1x2048_S1x2048_0_0 y⟩),
      View.canon_unit_zero corner_zero]
    simp only [View.readCov_unit_zero (S := S1x2048) _ corner_zero, View.readAt_eq_ld, harg2.read_unread, harg3.read_unread, harg4.read_unread,
    harg5.read_unread, harg6.read_unread, harg8.read_unread,
    View.ld_unit_zero (S := S1x2048) corner_zero, View.ld_unit_zero (S := S1x1024) corner_zero,
    View.ld_unit_zero (S := S1024x2048) corner_zero]
  iexists _; isplitr
  swap; · iexact H6
  ipureintro
  sl_unfold_run_names
  rw [View.read_writes_eq_canon _ _ _ (fun y => ⟨_, List.mem_singleton_self _, View.mem_set_unit_zero corner_zero inb_S1x2048_S1x2048_0_0 y⟩),
    View.canon_unit_zero corner_zero]
  simp only [View.readCov_unit_zero (S := S1x2048) _ corner_zero, View.readAt_eq_ld, harg2.read_unread, harg3.read_unread, harg4.read_unread,
    harg5.read_unread, harg6.read_unread, harg8.read_unread,
    View.ld_unit_zero (S := S1x2048) corner_zero, View.ld_unit_zero (S := S1x1024) corner_zero,
    View.ld_unit_zero (S := S1024x2048) corner_zero]

end Cert.KernelIdeal.Hand

end
-- ==== Proof.IdealSpikePoints.lean ====
import proofs.«157642_j27358941675618_2_alg».proof.Proof.IdealSpikeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The spike kernel over its grid: what every buffer holds at every point

Point `t` of the 32 is column block `t / 8` at presynaptic block `t % 8`. Everything here is stated at a parameter
`V`, the contents of the TensorCore's buffers when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds this point's block, whether or not the pipeline fetched it
    here: where it was not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- Input window 1's current staging buffer holds this point's block, whether or not the pipeline fetched it
    here: where it was not fetched the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-- Input window 2's current staging buffer holds this point's block, whether or not the pipeline fetched it
    here: where it was not fetched the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  refine (dat.before_in_eq_fetched 2 rfl (fun _ => rfl) (fun _ _ _ => rfl) hkeep t d).trans ?_
  unfold Dat.fetched Dat.blockOf iblk0; rw [hA]; try rfl

/-- Input window 3's current staging buffer holds this point's block, whether or not the pipeline fetched it
    here: where it was not fetched the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  refine (dat.before_in_eq_fetched 3 rfl (fun _ => rfl) (fun _ _ _ => rfl) hkeep t d).trans ?_
  unfold Dat.fetched Dat.blockOf iblk0; rw [hA]; try rfl

/-- Input window 4's current staging buffer holds this point's block, whether or not the pipeline fetched it
    here: where it was not fetched the block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  refine (dat.before_in_eq_fetched 4 rfl (fun _ => rfl) (fun _ _ _ => rfl) hkeep t d).trans ?_
  unfold Dat.fetched Dat.blockOf iblk0; rw [hA]; try rfl

/-! ## Where a point sits among the presynaptic blocks -/

/-- The first presynaptic block is at the points divisible by 8. -/
theorem atFirstK_iff : ∀ t : Fin cfg0.N, atFirstK (grid0.coords t) ↔ t.val % 8 = 0 :=
  (by decide +kernel : ∀ t : Fin grid0.N, atFirstK (grid0.coords t) ↔ t.val % 8 = 0)
/-- The last presynaptic block is at the points that leave 7. -/
theorem atLastK_iff : ∀ t : Fin cfg0.N, atLastK (grid0.coords t) ↔ t.val % 8 = 7 :=
  (by decide +kernel : ∀ t : Fin grid0.N, atLastK (grid0.coords t) ↔ t.val % 8 = 7)

/-- Away from the last presynaptic block the body stores nothing into the spikes' buffer, and the pipeline does not
    write it back there; at the last block it does both. -/
theorem spikes_idle : ∀ t : Fin cfg0.N, ¬atLastK (grid0.coords t) → cfg0.idle 5 (grid0.coords t) = true := by decide +kernel
theorem spikes_unflushed : ∀ t : Fin cfg0.N, ¬atLastK (grid0.coords t) → (cfg0.win 5).flush t = false := by decide +kernel
theorem spikes_live : ∀ t : Fin cfg0.N, atLastK (grid0.coords t) → cfg0.idle 5 (grid0.coords t) = false := by decide +kernel

/-! ## The running sum, point by point -/

/-- This point's partial products added to `acc`: the drive's block times its weights' block plus the recurrent
    drive's block times its weights' block. -/
abbrev step (c : Dev nD) (acc : Vec F S1x2048 .f32) (t : Fin cfg0.N) : Vec F S1x2048 .f32 :=
  addPartials acc (iblk0 V c 0 t) (iblk0 V c 1 t) (iblk0 V c 2 t) (iblk0 V c 3 t)

/-- What the scratch row holds after point `n`: at a first presynaptic block the sum restarts from zero, elsewhere it
    continues from the point before. -/
def runningSum (c : Dev nD) : (n : ℕ) → n < cfg0.N → Vec F S1x2048 .f32
  | 0, hn => step V c k0_pay1 ⟨0, hn⟩
  | n + 1, hn =>
    if (n + 1) % 8 = 0 then step V c k0_pay1 ⟨n + 1, hn⟩
    else step V c (runningSum c n (Nat.lt_of_succ_lt hn)) ⟨n + 1, hn⟩

theorem runningSum_first (c : Dev nD) (t : Fin cfg0.N) (h : t.val % 8 = 0) :
    runningSum V c t.val t.isLt = step V c k0_pay1 t := by
  obtain ⟨n, hn⟩ := t
  cases n with
  | zero => rfl
  | succ n => exact if_pos h

theorem runningSum_next (c : Dev nD) (t : Fin cfg0.N) (h : ¬t.val % 8 = 0) :
    runningSum V c t.val t.isLt = step V c (runningSum V c (t.val - 1) (Nat.lt_of_le_of_lt (Nat.sub_le _ _) t.isLt)) t := by
  obtain ⟨n, hn⟩ := t
  cases n with
  | zero => exact absurd (Nat.zero_mod _) h
  | succ n => exact if_neg h

/-- The spikes' block as the last presynaptic block of a column block leaves it. -/
abbrev spikesBlock (c : Dev nD) (t : Fin cfg0.N) : Vec F S1x2048 .f32 :=
  k0_pay3 (iblk0 V c 4 t) (runningSum V c t.val t.isLt)

/-! ## The region's invariant -/

/-- The scratch row as a whole memref. -/
abbrev scratchRow : Memref sig .tc .vmem S1x2048 .f32 := Memref.whole cc0_scratch0

/-- The class invariant (every scoped buffer no window stages at some contents, the generator register at some
    state) hands out the scratch row at some contents and takes it back at any contents. -/
theorem scratch_out_of_rest (c : Dev nD) :
    (Pipeline.ΦA spec0 c : sProp 𝕄)
      ⊢ iprop((∃ d, owns (c : Thread nD τ) scratchRow fullShare d) ∗ ((∃ d, owns (c : Thread nD τ) scratchRow fullShare d) -∗ Pipeline.ΦA spec0 c)) := by
  unfold Pipeline.ΦA; rw [scopedRest0_eq]; simp only [scratchRow, owns_whole]
  iintro ⟨⟨Hs, Hrest⟩, Hp⟩
  isplitl [Hs]; · iexact Hs
  iintro Hs
  isplitl [Hs Hrest]
  · isplitl [Hs]; · iexact Hs
    iexact Hrest
  iexact Hp

/-- Before the first point the class invariant; after point `n` the scratch row at the running sum there, beside
    the promise that handing the row back at any contents restores the class invariant. -/
def sumInv (c : Dev nD) : (n : ℕ) → n ≤ cfg0.N → sProp 𝕄
  | 0, _ => Pipeline.ΦA spec0 c
  | n + 1, hn => iprop(owns (c : Thread nD τ) scratchRow fullShare (runningSum V c n hn)
      ∗ ((∃ d, owns (c : Thread nD τ) scratchRow fullShare d) -∗ Pipeline.ΦA spec0 c))

theorem sumInv_pos (c : Dev nD) (n : ℕ) (h : n ≤ cfg0.N) (hz : n ≠ 0) :
    sumInv V c n h = iprop(owns (c : Thread nD τ) scratchRow fullShare (runningSum V c (n - 1) (by omega))
      ∗ ((∃ d, owns (c : Thread nD τ) scratchRow fullShare d) -∗ Pipeline.ΦA spec0 c)) := by
  cases n with
  | zero => exact absurd rfl hz
  | succ n => rfl

/-- Before any point the scratch row can be taken at SOME contents, leaving the promise. -/
theorem sumInv_forget (c : Dev nD) (n : ℕ) (h : n ≤ cfg0.N) :
    sumInv V c n h ⊢ iprop((∃ d, owns (c : Thread nD τ) scratchRow fullShare d) ∗ ((∃ d, owns (c : Thread nD τ) scratchRow fullShare d) -∗ Pipeline.ΦA spec0 c)) := by
  cases n with
  | zero => exact scratch_out_of_rest c
  | succ n =>
    show iprop(owns (c : Thread nD τ) scratchRow fullShare (runningSum V c n h) ∗ _) ⊢ _
    iintro ⟨Hs, Hw⟩
    isplitl [Hs]; · iexists _; iexact Hs
    iexact Hw

/-! ## The proof data -/

/-- The region's proof data on core `c`: the arrays as the region finds them; after the body each input's buffer at
    its block and the spikes' buffer at `spikesBlock` (consulted only at a last presynaptic block: elsewhere the
    window is idle); the invariant `sumInv`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => spikesBlock V c t
  Φ t := sumInv V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = spikesBlock V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem sumInv_castSucc (c : Dev nD) (t : Fin cfg0.N) :
    (dat0 V c).Φ t.castSucc = sumInv V c t.val (Nat.le_of_lt t.isLt) := by
  dsimp only [dat0]; simp only [Fin.coe_castSucc]

/-! ## The body obligation -/

theorem leaves_in0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem leaves_in1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem leaves_in2 (c : Dev nD) (t : Fin cfg0.N) :
    (dat0 V c).leavesExact 2 t = owns (c : Thread nD τ) (st0_2 t) fullShare (iblk0 V c 2 t) := by
  unfold Dat.leavesExact; rw [show cfg0.idle 2 (cfg0.grid.coords t) = false from rfl, after0_2]
theorem leaves_in3 (c : Dev nD) (t : Fin cfg0.N) :
    (dat0 V c).leavesExact 3 t = owns (c : Thread nD τ) (st0_3 t) fullShare (iblk0 V c 3 t) := by
  unfold Dat.leavesExact; rw [show cfg0.idle 3 (cfg0.grid.coords t) = false from rfl, after0_3]
theorem leaves_in4 (c : Dev nD) (t : Fin cfg0.N) :
    (dat0 V c).leavesExact 4 t = owns (c : Thread nD τ) (st0_4 t) fullShare (iblk0 V c 4 t) := by
  unfold Dat.leavesExact; rw [show cfg0.idle 4 (cfg0.grid.coords t) = false from rfl, after0_4]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any point. The inputs' buffers hold their blocks. Where the point sits among the presynaptic blocks
    decides the case: at a first block the scratch row is taken at whatever it holds and the sum restarts; elsewhere
    it is taken at the running sum of the point before, and the recursion equation says the result is the running sum
    here. The spikes' buffer is handed back as found except at a last block, where it receives the spikes' block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = iprop(owns (c : Thread nD τ) scratchRow fullShare (runningSum V c t.val t.isLt)
      ∗ ((∃ d, owns (c : Thread nD τ) scratchRow fullShare d) -∗ Pipeline.ΦA spec0 c)) from rfl,
    sumInv_castSucc, leaves_in0, leaves_in1, leaves_in2, leaves_in3, leaves_in4]
  have hN : t.val < 32 := lt_of_lt_of_eq t.isLt (show cfg0.N = 32 from N_0)
  by_cases h0 : t.val % 8 = 0
  · have hc0 : atFirstK (grid0.coords t) := (atFirstK_iff t).mpr h0
    have hc1 : ¬atLastK (grid0.coords t) := fun h => by have := (atLastK_iff t).mp h; omega
    rw [Dat.leavesExact_idle (dat0 V c) 5 t (spikes_idle t hc1) (spikes_unflushed t hc1), runningSum_first V c t h0]
    iintro ⟨HΦ, Ho, ⟨%d0, H0⟩, ⟨%d1, H1⟩, ⟨%d2, H2⟩, ⟨%d3, H3⟩, ⟨%d4, H4⟩, ⟨%d5, H5⟩⟩
    have hforget := sumInv_forget V c t.val (Nat.le_of_lt t.isLt)
    ihave HΦ' := hforget $$ HΦ
    icases HΦ' with ⟨Hs, Hw⟩
    iapply (body_first c Set.univ _ _ _ _ _ _ _ _ _ _ _ _ _ _ _ hc0 hc1 (iblk0 V c 0 t) (iblk0 V c 1 t) (iblk0 V c 2 t) (iblk0 V c 3 t) (iblk0 V c 4 t) ((dat0 V c).before 5 t d5) _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hw]
    · isplitl [Hs]; · iexact Hs
      iexact Hw
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    have hc0 : ¬atFirstK (grid0.coords t) := fun h => h0 ((atFirstK_iff t).mp h)
    rw [sumInv_pos V c _ _ hz, runningSum_next V c t h0]
    by_cases h1 : t.val % 8 = 7
    · have hc1 : atLastK (grid0.coords t) := (atLastK_iff t).mpr h1
      rw [show (dat0 V c).leavesExact 5 t = owns (c : Thread nD τ) (st0_5 t) fullShare ((dat0 V c).after 5 t) from by
        unfold Dat.leavesExact; rw [spikes_live t hc1], after0_5]
      unfold spikesBlock
      rw [runningSum_next V c t h0]
      iintro ⟨⟨Hs, Hw⟩, Ho, ⟨%d0, H0⟩, ⟨%d1, H1⟩, ⟨%d2, H2⟩, ⟨%d3, H3⟩, ⟨%d4, H4⟩, ⟨%d5, H5⟩⟩
      iapply (body_last c Set.univ _ _ _ _ _ _ _ _ _ _ _ _ _ _ _ hc0 hc1 (iblk0 V c 0 t) (iblk0 V c 1 t) (iblk0 V c 2 t) (iblk0 V c 3 t) (iblk0 V c 4 t) (runningSum V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [Hs]; · iexact Hs
      iintro ⟨H0, H1, H2, H3, H4, H5, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      isplitl [H4]; · iexact H4
      iexact H5
    · have hc1 : ¬atLastK (grid0.coords t) := fun h => h1 ((atLastK_iff t).mp h)
      rw [Dat.leavesExact_idle (dat0 V c) 5 t (spikes_idle t hc1) (spikes_unflushed t hc1)]
      iintro ⟨⟨Hs, Hw⟩, Ho, ⟨%d0, H0⟩, ⟨%d1, H1⟩, ⟨%d2, H2⟩, ⟨%d3, H3⟩, ⟨%d4, H4⟩, ⟨%d5, H5⟩⟩
      iapply (body_middle c Set.univ _ _ _ _ _ _ _ _ _ _ _ _ _ _ _ hc0 hc1 (iblk0 V c 0 t) (iblk0 V c 1 t) (iblk0 V c 2 t) (iblk0 V c 3 t) (iblk0 V c 4 t) ((dat0 V c).before 5 t d5) (runningSum V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem inv_first (c : Dev nD) : (dat0 V c).Φ 0 = Pipeline.ΦA spec0 c := rfl

/-- After the last point the invariant gives the class's back: the scratch row's contents are forgotten. -/
theorem inv_last (c : Dev nD) : (dat0 V c).Φ (Fin.last cfg0.N) ⊢ Pipeline.ΦA spec0 c := by
  rw [show (dat0 V c).Φ (Fin.last cfg0.N) = sumInv V c cfg0.N (Nat.le_refl _) from rfl,
    sumInv_pos V c _ _ (by rw [show cfg0.N = 32 from N_0]; decide)]
  iintro ⟨Hs, Hw⟩
  iapply Hw
  iexists _; iexact Hs

end Cert.KernelIdeal.Hand

end
-- ==== Proof.IdealOuter.lean ====
/-
  The second pallas_call of the program is the outer-product kernel: on a 16 × 4 grid, point (i, j) takes rows
  512·i … 512·i+511 of the four column vectors (the two traces and the two presynaptic activities) and columns
  2048·j … 2048·j+2047 of the spike row, and fills one 512 × 2048 tile of each weight update with

      (trace · decay + activity) ⊗ spikes.

  This module is the body half of that call's frame, at ANY float instance `F` and at ANY contents `V` of the
  TensorCore's buffers on entry to the call:
  * what each of the seven windows' staging buffers holds around the body at a grid point — the five inputs their
    blocks (whether the pipeline refetched them at the point or not: the column blocks move only when the row index
    `i` moves), the two outputs the tile above, written as the canonical contents of ONE store over the whole buffer;
  * the body's Hoare triple: five whole loads, then for each output a load of the buffer as it stands (the value is
    dropped, so the buffer may hold anything) followed by one store covering it;
  * the pipeline's proof data for the call and the library's body obligation for it.
-/
import proofs.«157642_j27358941675618_2_alg».proof.Proof.Gen.KernelIdeal.Launch
import proofs.«157642_j27358941675618_2_alg».proof.Proof.Gen.KernelIdeal.Skeleton
import proofs.«157642_j27358941675618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the outer-product call finds them
variable (V : (c : Dev nD) → (b : Ref sig .tc) → Buf (Elt F) ((c : Thread nD τ).loc b))

/-! ## A window's block at a grid point -/

/-- The block of window `w` at point `t`: the sub-rectangle of the window's array (at its entry contents) that the
    window's index map selects there — 512 rows of a column vector, 2048 columns of the spike row, or a 512 × 2048
    tile of a weight update. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' buffers hold their blocks at every point

The four column windows depend on the row index `i` only, so the pipeline fetches them when `i` moves (every fourth
point) and leaves the buffer alone in between; the spike window is fetched at every point. Either way the body finds
the window's block: a buffer that was not refetched still holds the previous point's block, and the block index has
not moved. Each statement is about ANY proof data over `V`'s arrays whose body leaves the input where it was. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ s, (cfg1.win 0).cut (cfg1.grid.coords s) (dat.after 0 s) = dat.blockOf 0 s := by
    intro s; rw [hafter s]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ s, (cfg1.win 1).cut (cfg1.grid.coords s) (dat.after 1 s) = dat.blockOf 1 s := by
    intro s; rw [hafter s]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ s, (cfg1.win 2).cut (cfg1.grid.coords s) (dat.after 2 s) = dat.blockOf 2 s := by
    intro s; rw [hafter s]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hkeep : ∀ s, (cfg1.win 3).cut (cfg1.grid.coords s) (dat.after 3 s) = dat.blockOf 3 s := by
    intro s; rw [hafter s]; unfold Dat.blockOf iblk1; rw [hA]; try rfl
  rw [dat.before_in_eq_fetched 3 rfl (fun _ => rfl) (fun _ _ _ => rfl) hkeep t d]
  unfold Dat.fetched Dat.blockOf iblk1; rw [hA]; try rfl

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t := by
  have hkeep : ∀ s, (cfg1.win 4).cut (cfg1.grid.coords s) (dat.after 4 s) = dat.blockOf 4 s := by
    intro s; rw [hafter s]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body's three rectangles: every access is of a whole buffer -/

/-- All 512 rows of a column block. -/
abbrev wholeCol : Rect S512x1 := Rect.unit (s := S512x1) ![0, 0] S512x1.size inb_S512x1_S512x1_0_0
/-- All 2048 entries of the spike block. -/
abbrev wholeRow : Rect S1x2048 := Rect.unit (s := S1x2048) ![0, 0] S1x2048.size inb_S1x2048_S1x2048_0_0
/-- The whole 512 × 2048 output tile. -/
abbrev wholeTile : Rect S512x2048 := Rect.unit (s := S512x2048) ![0, 0] S512x2048.size inb_S512x2048_S512x2048_0_0

/-! ## What the body leaves in the two output buffers -/

/-- The first weight update's tile: one store over the whole buffer of (trace₁ · decay + x) ⊗ s, computed from the
    loads of the first trace's block `x0`, the first activity's block `x1` and the spike block `x4`. -/
def out1_5 (x0 x1 : Vec F S512x1 .f32) (x4 : Vec F S1x2048 .f32) : Vec F S512x2048 .f32 :=
  View.canon [⟨wholeTile, k1_pay2 (View.ld x0 wholeCol) (View.ld x1 wholeCol) (View.ld x4 wholeRow)⟩]

/-- The second weight update's tile: the same from the second trace's block `x2` and the second activity's `x3`. -/
def out1_6 (x2 x3 : Vec F S512x1 .f32) (x4 : Vec F S1x2048 .f32) : Vec F S512x2048 .f32 :=
  View.canon [⟨wholeTile, k1_pay3 (View.ld x2 wholeCol) (View.ld x3 wholeCol) (View.ld x4 wholeRow)⟩]

/-- A single store through the whole-tile rectangle reaches every index of the tile. -/
theorem wholeTile_covers (p : Vec F S512x2048 .f32) (y : S512x2048.Idx) :
    ∃ pc ∈ ([⟨wholeTile, p⟩] : List (View.Piece (Elt F) S512x2048 .f32)), y ∈ pc.1.set :=
  View.cover_of_tiled [⟨wholeTile, p⟩] S512x2048.size (by rfl) y

/-! ## The body's triple -/

set_option maxHeartbeats 1000000 in
/-- The kernel function on seven whole staging memrefs: the five inputs' reading `x0 … x4`, the two outputs' holding
    anything. It runs to its continuation with the inputs as they were and the outputs at `out1_5` and `out1_6` of the
    inputs. The body does load each output buffer just before it overwrites it; the loaded value feeds nothing, so
    whatever the buffer held is read and forgotten. -/
theorem sound_kernel1 (c : Dev nD) (E : Set ℕ) (i : grid1.Coords)
    (arg0 : Memref sig .tc .vmem S512x1 .f32) (harg0 : arg0.IsWhole) (arg1 : Memref sig .tc .vmem S512x1 .f32) (harg1 : arg1.IsWhole)
    (arg2 : Memref sig .tc .vmem S512x1 .f32) (harg2 : arg2.IsWhole) (arg3 : Memref sig .tc .vmem S512x1 .f32) (harg3 : arg3.IsWhole)
    (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 x1 x2 x3 : Vec F S512x1 .f32) (x4 : Vec F S1x2048 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out1_5 x0 x1 x4)
            ∗ owns (c : Thread nD τ) arg6 fullShare (out1_6 x2 x3 x4)) -∗ K ⟨⟩))
      ⊢ wp frame (wpE (defs₀ (F := F)) Variants.none c none) E
          (cc1__kernel_b i arg0 harg0 arg1 harg1 arg2 harg2 arg3 harg3 arg4 harg4 arg5 harg5 arg6 harg6) K := by
  simp only [cc1__kernel_b_eq_skeleton]; unfold cc1__kernel_b_skel
  unfold owns
  iintro ⟨⟨%f0, %e0, H0⟩, ⟨%f1, %e1, H1⟩, ⟨%f2, %e2, H2⟩, ⟨%f3, %e3, H3⟩, ⟨%f4, %e4, H4⟩,
    ⟨%d5, %f5, -, H5⟩, ⟨%d6, %f6, -, H6⟩, Hk⟩
  subst e0 e1 e2 e3 e4
  sl_exec
  sl_step
  iapply Hk
  -- the five inputs go back untouched
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  -- each output holds its one whole store over whatever was there: read back, that is the store's canon
  isplitl [H5]
  · iexists _; isplitr
    swap; · iexact H5
    ipureintro
    exact View.read_writes_eq_canon _ _ _ (wholeTile_covers _)
  iexists _; isplitr
  swap; · iexact H6
  ipureintro
  exact View.read_writes_eq_canon _ _ _ (wholeTile_covers _)

/-! ## The proof data of the call -/

/-- The pipeline's proof data for the outer-product call on core `c`: each window's array at its entry contents;
    after the body at point `t` every input buffer still at its block and the two output buffers at the tiles
    `out1_5`, `out1_6` of the input blocks there; the invariant is the plain one (the scoped buffers outside the call
    and the generator register ride along untouched); all shares full; no core owes another anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 4 t)
    | ⟨6, _⟩ => out1_6 (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves in each window's buffer, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 4 t) := by dsimp only [dat1]
theorem after1_6 (c : Dev nD) (t : Fin cfg1.N) :
    (dat1 V c).after 6 t = out1_6 (iblk1 V c 2 t) (iblk1 V c 3 t) (iblk1 V c 4 t) := by dsimp only [dat1]

/-- So at every point, refetched or not, each input buffer holds its block when the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the pipeline hands the body at point `t`: the invariant, the core's debts (none), and each window's current
    staging buffer at whatever the schedule left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it takes back: the same with every buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the five input buffers hold their blocks, so the kernel's triple applies with those
    blocks as `x0 … x4`; the invariant and the core's (empty) debts are not looked at and do not depend on the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the call: the statement above at every point, the windows conjoined one by one. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
import proofs.«157642_j27358941675618_2_alg».proof.Proof.IdealSpikePoints
import proofs.«157642_j27358941675618_2_alg».proof.Proof.IdealOuter
import proofs.«157642_j27358941675618_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: the spike region, four reshapes, the outer-product region

What the TensorCore's unscoped buffers hold at each boundary, a fold from the launch memory: the spike region leaves
its arrays at what its write-backs make of them and every other buffer alone; the reshapes write the four column
copies; the outer-product region again changes only its own arrays. -/

/-- Core `c`'s buffers at launch, -/
abbrev atLaunch (c : Dev nD) : Valuation τ sig (Elt F) := fun b => m (c, b)
/-- read at the TensorCore's references: what the spike region's proof data take. -/
abbrev spikesEntry : (c : Dev nD) → (b : Ref sig .tc) → Buf (Elt F) ((c : Thread nD τ).loc b) := fun c b => atLaunch m c b

/-- After the spike region: its arrays at what the pipeline leaves, every other buffer as entered. -/
def afterSpikes (c : Dev nD) : Valuation τ sig (Elt F) :=
  Pipeline.withArrays spec0 c (atLaunch m c) fun w => (dat0 (spikesEntry m) c).arrAt w cfg0.N
theorem afterSpikes_arr (c : Dev nD) (w : Fin cfg0.W) :
    afterSpikes m c (Proc.devRef .tc (Pipeline.arrRef spec0 w)) = (dat0 (spikesEntry m) c).arrAt w cfg0.N := by
  unfold afterSpikes; exact Pipeline.withArrays_arr spec0 launch0.win.arr_inj c _ _ w
theorem afterSpikes_of_ne (c : Dev nD) (b : Ref sig .tc) (hb : ∀ w, Pipeline.arrRef spec0 w ≠ b) :
    afterSpikes m c (Proc.devRef .tc b) = atLaunch m c (Proc.devRef .tc b) := by
  unfold afterSpikes; exact Pipeline.withArrays_of_ne spec0 c _ _ b hb
abbrev spikesExit : (c : Dev nD) → (b : Ref sig .tc) → Buf (Elt F) ((c : Thread nD τ).loc b) := fun c b => afterSpikes m c b
theorem spikes_arrays (c : Dev nD) (w : Fin cfg0.W) : (dat0 (spikesEntry m) c).arrAt w cfg0.N = spikesExit m c (Pipeline.arrRef spec0 w) :=
  (afterSpikes_arr m c w).symm
theorem spikes_others (c : Dev nD) : ∀ b, b ∉ Finset.univ.image (Pipeline.arrRef spec0) → spikesExit m c b = spikesEntry m c b :=
  fun b hb => afterSpikes_of_ne m c b fun w e => hb (Finset.mem_image.mpr ⟨w, Finset.mem_univ _, e⟩)

/-- After the four reshapes, -/
abbrev afterReshapes (c : Dev nD) : Valuation τ sig (Elt F) := StableHlo.after hostOps1 (afterSpikes m c)
/-- which is what the outer-product region's proof data take. -/
abbrev outerEntry : (c : Dev nD) → (b : Ref sig .tc) → Buf (Elt F) ((c : Thread nD τ).loc b) := fun c b => afterReshapes m c b
/-- A buffer that is none of the four column copies passes the reshapes unchanged. -/
theorem reshapes_keep (c : Dev nD) (b : Ref sig .tc) (hb : b ∉ hostOps1_W) :
    afterReshapes m c (Proc.devRef .tc b) = afterSpikes m c (Proc.devRef .tc b) :=
  StableHlo.after_of_writes_sub hostOps1 _ hostOps1_writes hb

/-- After the outer-product region: its arrays at what the pipeline leaves, every other buffer as entered. -/
def atEnd (c : Dev nD) : Valuation τ sig (Elt F) :=
  Pipeline.withArrays spec1 c (afterReshapes m c) fun w => (dat1 (outerEntry m) c).arrAt w cfg1.N
theorem atEnd_arr (c : Dev nD) (w : Fin cfg1.W) :
    atEnd m c (Proc.devRef .tc (Pipeline.arrRef spec1 w)) = (dat1 (outerEntry m) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m c (Proc.devRef .tc b) = afterReshapes m c (Proc.devRef .tc b) := by
  unfold atEnd; exact Pipeline.withArrays_of_ne spec1 c _ _ b hb
abbrev outerExit : (c : Dev nD) → (b : Ref sig .tc) → Buf (Elt F) ((c : Thread nD τ).loc b) := fun c b => atEnd m c b
theorem outer_arrays (c : Dev nD) (w : Fin cfg1.W) : (dat1 (outerEntry m) c).arrAt w cfg1.N = outerExit m c (Pipeline.arrRef spec1 w) :=
  (atEnd_arr m c w).symm
theorem outer_others (c : Dev nD) : ∀ b, b ∉ Finset.univ.image (Pipeline.arrRef spec1) → outerExit m c b = outerEntry m c b :=
  fun b hb => atEnd_of_ne m c b fun w e => hb (Finset.mem_image.mpr ⟨w, Finset.mem_univ _, e⟩)

/-! ## The arguments end as launched -/

/-- `main_arg0` ends as launched: the spike region only reads it (window 0), and no reshape writes it. -/
theorem atEnd_main_arg0 (c : Dev nD) : atEnd m c (Proc.devRef .tc main_arg0) = m ((c : Thread nD τ).loc main_arg0) :=
  calc atEnd m c (Proc.devRef .tc main_arg0)
    _ = afterReshapes m c (Proc.devRef .tc main_arg0) := atEnd_of_ne m c main_arg0 (by decide)
    _ = afterSpikes m c (Proc.devRef .tc main_arg0) := reshapes_keep m c main_arg0 (by decide)
    _ = atLaunch m c (Proc.devRef .tc main_arg0) := (afterSpikes_arr m c 0).trans (((dat0 (spikesEntry m) c).arrAt_in 0 rfl _).trans (A_eq0 (spikesEntry m) c 0))
    _ = m ((c : Thread nD τ).loc main_arg0) := rfl

/-- `main_arg1` ends as launched: the spike region only reads it (window 1), and no reshape writes it. -/
theorem atEnd_main_arg1 (c : Dev nD) : atEnd m c (Proc.devRef .tc main_arg1) = m ((c : Thread nD τ).loc main_arg1) :=
  calc atEnd m c (Proc.devRef .tc main_arg1)
    _ = afterReshapes m c (Proc.devRef .tc main_arg1) := atEnd_of_ne m c main_arg1 (by decide)
    _ = afterSpikes m c (Proc.devRef .tc main_arg1) := reshapes_keep m c main_arg1 (by decide)
    _ = atLaunch m c (Proc.devRef .tc main_arg1) := (afterSpikes_arr m c 1).trans (((dat0 (spikesEntry m) c).arrAt_in 1 rfl _).trans (A_eq0 (spikesEntry m) c 1))
    _ = m ((c : Thread nD τ).loc main_arg1) := rfl

/-- `main_arg2` ends as launched: the spike region only reads it (window 4), and no reshape writes it. -/
theorem atEnd_main_arg2 (c : Dev nD) : atEnd m c (Proc.devRef .tc main_arg2) = m ((c : Thread nD τ).loc main_arg2) :=
  calc atEnd m c (Proc.devRef .tc main_arg2)
    _ = afterReshapes m c (Proc.devRef .tc main_arg2) := atEnd_of_ne m c main_arg2 (by decide)
    _ = afterSpikes m c (Proc.devRef .tc main_arg2) := reshapes_keep m c main_arg2 (by decide)
    _ = atLaunch m c (Proc.devRef .tc main_arg2) := (afterSpikes_arr m c 4).trans (((dat0 (spikesEntry m) c).arrAt_in 4 rfl _).trans (A_eq0 (spikesEntry m) c 4))
    _ = m ((c : Thread nD τ).loc main_arg2) := rfl

/-- `main_arg3` ends as launched: no window of either region is on it, and no reshape writes it. -/
theorem atEnd_main_arg3 (c : Dev nD) : atEnd m c (Proc.devRef .tc main_arg3) = m ((c : Thread nD τ).loc main_arg3) :=
  calc atEnd m c (Proc.devRef .tc main_arg3)
    _ = afterReshapes m c (Proc.devRef .tc main_arg3) := atEnd_of_ne m c main_arg3 (by decide)
    _ = afterSpikes m c (Proc.devRef .tc main_arg3) := reshapes_keep m c main_arg3 (by decide)
    _ = atLaunch m c (Proc.devRef .tc main_arg3) := afterSpikes_of_ne m c main_arg3 (by decide)
    _ = m ((c : Thread nD τ).loc main_arg3) := rfl

/-- `main_arg4` ends as launched: no window of either region is on it, and no reshape writes it. -/
theorem atEnd_main_arg4 (c : Dev nD) : atEnd m c (Proc.devRef .tc main_arg4) = m ((c : Thread nD τ).loc main_arg4) :=
  calc atEnd m c (Proc.devRef .tc main_arg4)
    _ = afterReshapes m c (Proc.devRef .tc main_arg4) := atEnd_of_ne m c main_arg4 (by decide)
    _ = afterSpikes m c (Proc.devRef .tc main_arg4) := reshapes_keep m c main_arg4 (by decide)
    _ = atLaunch m c (Proc.devRef .tc main_arg4) := afterSpikes_of_ne m c main_arg4 (by decide)
    _ = m ((c : Thread nD τ).loc main_arg4) := rfl

/-- `main_arg5` ends as launched: the spike region only reads it (window 2), and no reshape writes it. -/
theorem atEnd_main_arg5 (c : Dev nD) : atEnd m c (Proc.devRef .tc main_arg5) = m ((c : Thread nD τ).loc main_arg5) :=
  calc atEnd m c (Proc.devRef .tc main_arg5)
    _ = afterReshapes m c (Proc.devRef .tc main_arg5) := atEnd_of_ne m c main_arg5 (by decide)
    _ = afterSpikes m c (Proc.devRef .tc main_arg5) := reshapes_keep m c main_arg5 (by decide)
    _ = atLaunch m c (Proc.devRef .tc main_arg5) := (afterSpikes_arr m c 2).trans (((dat0 (spikesEntry m) c).arrAt_in 2 rfl _).trans (A_eq0 (spikesEntry m) c 2))
    _ = m ((c : Thread nD τ).loc main_arg5) := rfl

/-- `main_arg6` ends as launched: the spike region only reads it (window 3), and no reshape writes it. -/
theorem atEnd_main_arg6 (c : Dev nD) : atEnd m c (Proc.devRef .tc main_arg6) = m ((c : Thread nD τ).loc main_arg6) :=
  calc atEnd m c (Proc.devRef .tc main_arg6)
    _ = afterReshapes m c (Proc.devRef .tc main_arg6) := atEnd_of_ne m c main_arg6 (by decide)
    _ = afterSpikes m c (Proc.devRef .tc main_arg6) := reshapes_keep m c main_arg6 (by decide)
    _ = atLaunch m c (Proc.devRef .tc main_arg6) := (afterSpikes_arr m c 3).trans (((dat0 (spikesEntry m) c).arrAt_in 3 rfl _).trans (A_eq0 (spikesEntry m) c 3))
    _ = m ((c : Thread nD τ).loc main_arg6) := rfl

/-! ## The results at the end -/

/-- The spikes at the end are what the spike region left: the outer-product region only reads them, and no reshape
    writes them. -/
theorem atEnd_spikes (c : Dev nD) : atEnd m c (Proc.devRef .tc main_v0) = (dat0 (spikesEntry m) c).arrAt 5 cfg0.N :=
  calc atEnd m c (Proc.devRef .tc main_v0)
    _ = afterReshapes m c (Proc.devRef .tc main_v0) := (atEnd_arr m c 4).trans (((dat1 (outerEntry m) c).arrAt_in 4 rfl _).trans (A_eq1 (outerEntry m) c 4))
    _ = afterSpikes m c (Proc.devRef .tc main_v0) := reshapes_keep m c main_v0 (by decide)
    _ = (dat0 (spikesEntry m) c).arrAt 5 cfg0.N := afterSpikes_arr m c 5
/-- The two weight updates at the end are what the outer-product region's write-backs left. -/
theorem atEnd_dw1 (c : Dev nD) : atEnd m c (Proc.devRef .tc main_v5_0) = (dat1 (outerEntry m) c).arrAt 5 cfg1.N := atEnd_arr m c 5
theorem atEnd_dw2 (c : Dev nD) : atEnd m c (Proc.devRef .tc main_v5_1) = (dat1 (outerEntry m) c).arrAt 6 cfg1.N := atEnd_arr m c 6

/-! ## The regions as segments of the program -/

/-- No pipeline has a prefetched table. -/
abbrev noTables : (p : Fin 2) → (pcfgs (F := F) p).Adm := fun p => (cfgs p).toPCfg_adm
/-- Each pipeline's proof data at its region's entry contents. -/
def proofData : (p : Fin 2) → (c : Dev nD) → Dat τ (Elt F) Unit ℕ (UR sig nD τ) ℕ (Pipeline.pin (pcfgs (F := F)) noTables p) c
  | ⟨0, _⟩ => fun c => dat0 (spikesEntry m) c
  | ⟨1, _⟩ => fun c => dat1 (outerEntry m) c
abbrev noVariants : Variants := Variants.none
/-- No core owes another anything. -/
abbrev noPairs : GSem nD τ sig → Finset Unit := fun _ => ∅
abbrev noLevels : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- The last thread state, without what is owed. -/
abbrev lastState (c : Dev nD) : sProp 𝕄 := iprop(StableHlo.held (c : Thread nD τ) (Pipeline.ucRefs τ sig) (atEnd m c) ∗ ∃ r, prngReg c r)
/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The reshapes as a segment from the contents the spike region left. -/
abbrev reshapesSeg : Pipeline.HostSeg (Name := ℕ) (U := UR sig nD τ) (pcfgs (F := F)) defs₀ noVariants noPairs noLevels :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (afterSpikes m) riding

set_option backward.isDefEq.respectTransparency.types false in
def region0 : Pipeline.RegionSeg (pcfgs (F := F)) noTables (proofData m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (spikesEntry m) c).loose
  hwaits := Pipeline.hwaits_of_owed_zero _ _ _ _ noPairs noLevels 0 fun _ _ => rfl
  pre c := iprop(StableHlo.held (c : Thread nD τ) (Pipeline.ucRefs τ sig) (atLaunch m c) ∗ riding c)
  post c := iprop(StableHlo.held (c : Thread nD τ) (Pipeline.ucRefs τ sig) (afterSpikes m c) ∗ riding c)
  X c := iprop(∃ r, prngReg c r)
  Y c := iprop(∃ r, prngReg c r)
  Z c := Pipeline.unscopedRest (Ix := Unit) (Name := ℕ) (U := UR sig nD τ) (Lvl := ℕ) spec0 c (spikesEntry m c)
  hentry c := by
    rw [Pipeline.ownSems0_none]
    have hsplit := Pipeline.arrays_of_unscopedBufs (p := 0) (pcfgs (F := F)) noTables (proofData m) launch0.win launch0.arr_whole c
      ((proofData m 0 c).share_full fun _ => rfl) (spikesEntry m c) fun _ => rfl
    rw [Pipeline.unscopedBufs_held] at hsplit
    iintro ⟨⟨Hbufs, Hgen, Howes⟩, -, -⟩
    ihave Hsplit := hsplit $$ Hbufs
    icases Hsplit with ⟨Harr, Hother⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr
      · ipureintro; exact fun _ _ => Or.inl trivial
      iexact Howes
    isplitl [Hgen]; · iexact Hgen
    iexact Hother
  hin c := by
    rw [show (proofData m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none]
    refine (inv_last (spikesEntry m) c).trans ?_
    unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) noTables (Ix := Unit) (Name := ℕ) (U := UR sig nD τ) (Lvl := ℕ)
      launch0.win launch0.arr_whole c (proofData m) ((proofData m 0 c).share_full fun _ => rfl)
      (spikesEntry m c) (spikesExit m c) ((proofData m 0 c).arrAt · cfg0.N) (spikes_arrays m c) (spikes_others m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
def region1 : Pipeline.RegionSeg (pcfgs (F := F)) noTables (proofData m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (outerEntry m) c).loose
  hwaits := Pipeline.hwaits_of_owed_zero _ _ _ _ noPairs noLevels 1 fun _ _ => rfl
  pre c := iprop(StableHlo.held (c : Thread nD τ) (Pipeline.ucRefs τ sig) (afterReshapes m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (outerEntry m c)
  hentry c := by
    rw [Pipeline.ownSems0_none]
    have hsplit := Pipeline.arrays_of_unscopedBufs (p := 1) (pcfgs (F := F)) noTables (proofData m) launch1.win launch1.arr_whole c
      ((proofData m 1 c).share_full fun _ => rfl) (outerEntry m c) fun _ => rfl
    rw [Pipeline.unscopedBufs_held] at hsplit
    iintro ⟨⟨Hbufs, Hgen, Howes⟩, -, -⟩
    ihave Hsplit := hsplit $$ Hbufs
    icases Hsplit with ⟨Harr, Hother⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr
      · ipureintro; exact fun _ _ => Or.inl trivial
      iexact Howes
    isplitl [Hgen]; · iexact Hgen
    iexact Hother
  hin c := by
    rw [show (proofData m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none]
    refine ((show (proofData m 1 c).Φ (Fin.last _) ⊢ Pipeline.ΦA spec1 c from .rfl)).trans ?_
    unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) noTables (Ix := Unit) (Name := ℕ) (U := UR sig nD τ) (Lvl := ℕ)
      launch1.win launch1.arr_whole c (proofData m) ((proofData m 1 c).share_full fun _ => rfl)
      (outerEntry m c) (outerExit m c) ((proofData m 1 c).arrAt · cfg1.N) (outer_arrays m c) (outer_others m c)
    rw [Pipeline.unscopedBufs_held] at hjoin
    iintro ⟨Harr, Howes, Hgen, Hother⟩
    imodintro
    isplitl [Harr Hother Hgen]
    · isplitl [Harr Hother]
      · iapply hjoin; isplitl [Harr] <;> iassumption
      iexact Hgen
    unfold Pipeline.Dat.owesAt Pipeline.owesWithin
    icases Howes with ⟨%W, -, Howes⟩; iexists W; iexact Howes

/-! ## The run -/

/-- The program's three segments in order. -/
abbrev mainSegments : List (Pipeline.Seg (pcfgs (F := F)) noTables (proofData m) () defs₀ noVariants noPairs noLevels) :=
  [ .region (region0 m), .host (reshapesSeg m), .region (region1 m) ]
theorem main_is_segments (c : Dev nD) : main (F := F) c = Pipeline.Seg.run (mainSegments m) := (main_chain c).trans (by chain_rfl)

set_option backward.isDefEq.respectTransparency.types false in
/-- From any memory with zero counters every weakly fair execution of the program terminates, nothing faulting, and
    every final state holds every unscoped buffer of every core at `atEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) noTables (proofData m) () cellOf_inj emb₁ defs₀ noVariants noPairs noLevels m ρ main (mainSegments m)
    (fun c Q => by rw [main_is_segments m c])
    (by simp only [mainSegments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ riding c)) (Tₙ := lastState m)
    (hch := ⟨fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = atEnd m c b)
    (hfin := fun c s' => by
      iintro ⟨⟨Hbufs, -⟩, HSI⟩
      unfold StableHlo.held
      imodintro
      iapply (pointsTo_read_all (Pipeline.ucRefs τ sig) (fun b => (((c : Thread nD τ)).1, b)) (atEnd m c) s')
      isplitl [Hbufs] <;> iassumption)
    (hQ := fun _ h => h)

/-- The program runs to the end, nothing faulting, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (held_ref main_arg0 (by decide))).trans (atEnd_main_arg0 m c),
      (h c _ (held_ref main_arg1 (by decide))).trans (atEnd_main_arg1 m c),
      (h c _ (held_ref main_arg2 (by decide))).trans (atEnd_main_arg2 m c),
      (h c _ (held_ref main_arg3 (by decide))).trans (atEnd_main_arg3 m c),
      (h c _ (held_ref main_arg4 (by decide))).trans (atEnd_main_arg4 m c),
      (h c _ (held_ref main_arg5 (by decide))).trans (atEnd_main_arg5 m c),
      (h c _ (held_ref main_arg6 (by decide))).trans (atEnd_main_arg6 m c)⟩) (run_all m ρ)

end Cert.KernelIdeal.Hand

end
-- ==== Proof.IdealOuterInputs.lean ====
import proofs.«157642_j27358941675618_2_alg».proof.Proof.IdealRun
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]
variable (m : (ℓ : Loc nD τ sig) → Buf (Elt F) ℓ)

/-! # What the outer-product region is handed

Its four column inputs are the launch arguments `trace1`, `x`, `trace2`, `x1`, each a row of 8192 entries laid out
as a column; its row input is the spikes' array as the spike region left it. -/

/-- A row of 8192 entries laid out as a column: row `i` of the column is entry `i` of the row (both sit at
    position `i` of the flat layout). -/
theorem column_of_row {α : Type} (x : S1x8192.Idx → α) (i : Fin 8192) :
    shapeCast S8192x1 x shapeCasts_S1x8192_S8192x1 (ix2 i (0 : Fin 1)) = x (ix2 (0 : Fin 1) i) :=
  shapeCast_apply x shapeCasts_S1x8192_S8192x1 (ix2 i (0 : Fin 1)) (ix2 (0 : Fin 1) i) (by
    rw [Shape.rowMajor_val_two, Shape.rowMajor_val_two]
    show 0 * 8192 + i.val = i.val * 1 + 0
    omega)

/-! ## The spike region leaves every launch argument as it was -/

theorem afterSpikes_main_arg0 (c : Dev nD) : afterSpikes m c (Proc.devRef .tc main_arg0) = m ((c : Thread nD τ).loc main_arg0) :=
  ((afterSpikes_arr m c 0).trans (((dat0 (spikesEntry m) c).arrAt_in 0 rfl _).trans (A_eq0 (spikesEntry m) c 0))).trans rfl
theorem afterSpikes_main_arg1 (c : Dev nD) : afterSpikes m c (Proc.devRef .tc main_arg1) = m ((c : Thread nD τ).loc main_arg1) :=
  ((afterSpikes_arr m c 1).trans (((dat0 (spikesEntry m) c).arrAt_in 1 rfl _).trans (A_eq0 (spikesEntry m) c 1))).trans rfl
theorem afterSpikes_main_arg2 (c : Dev nD) : afterSpikes m c (Proc.devRef .tc main_arg2) = m ((c : Thread nD τ).loc main_arg2) :=
  ((afterSpikes_arr m c 4).trans (((dat0 (spikesEntry m) c).arrAt_in 4 rfl _).trans (A_eq0 (spikesEntry m) c 4))).trans rfl
theorem afterSpikes_main_arg3 (c : Dev nD) : afterSpikes m c (Proc.devRef .tc main_arg3) = m ((c : Thread nD τ).loc main_arg3) :=
  (afterSpikes_of_ne m c main_arg3 (by decide)).trans rfl
theorem afterSpikes_main_arg4 (c : Dev nD) : afterSpikes m c (Proc.devRef .tc main_arg4) = m ((c : Thread nD τ).loc main_arg4) :=
  (afterSpikes_of_ne m c main_arg4 (by decide)).trans rfl
theorem afterSpikes_main_arg5 (c : Dev nD) : afterSpikes m c (Proc.devRef .tc main_arg5) = m ((c : Thread nD τ).loc main_arg5) :=
  ((afterSpikes_arr m c 2).trans (((dat0 (spikesEntry m) c).arrAt_in 2 rfl _).trans (A_eq0 (spikesEntry m) c 2))).trans rfl
theorem afterSpikes_main_arg6 (c : Dev nD) : afterSpikes m c (Proc.devRef .tc main_arg6) = m ((c : Thread nD τ).loc main_arg6) :=
  ((afterSpikes_arr m c 3).trans (((dat0 (spikesEntry m) c).arrAt_in 3 rfl _).trans (A_eq0 (spikesEntry m) c 3))).trans rfl

/-! ## The five inputs -/

/-- The outer-product region finds in `main_v1` the first trace laid out as a column. -/
theorem outer_finds_main_v1 (c : Dev nD) :
    (outerEntry m c main_v1 : S8192x1.Idx → Elt F .f32) = shapeCast S8192x1 (m ((c : Thread nD τ).loc main_arg3)) shapeCasts_S1x8192_S8192x1 := by
  show StableHlo.after hostOps1 (afterSpikes m c) (Proc.devRef .tc main_v1) = _
  after_results
  rw [afterSpikes_main_arg3 m c]
  rfl
/-- The outer-product region finds in `main_v2` the external drive laid out as a column. -/
theorem outer_finds_main_v2 (c : Dev nD) :
    (outerEntry m c main_v2 : S8192x1.Idx → Elt F .f32) = shapeCast S8192x1 (m ((c : Thread nD τ).loc main_arg0)) shapeCasts_S1x8192_S8192x1 := by
  show StableHlo.after hostOps1 (afterSpikes m c) (Proc.devRef .tc main_v2) = _
  after_results
  rw [afterSpikes_main_arg0 m c]
  rfl
/-- The outer-product region finds in `main_v3` the second trace laid out as a column. -/
theorem outer_finds_main_v3 (c : Dev nD) :
    (outerEntry m c main_v3 : S8192x1.Idx → Elt F .f32) = shapeCast S8192x1 (m ((c : Thread nD τ).loc main_arg4)) shapeCasts_S1x8192_S8192x1 := by
  show StableHlo.after hostOps1 (afterSpikes m c) (Proc.devRef .tc main_v3) = _
  after_results
  rw [afterSpikes_main_arg4 m c]
  rfl
/-- The outer-product region finds in `main_v4` the recurrent drive laid out as a column. -/
theorem outer_finds_main_v4 (c : Dev nD) :
    (outerEntry m c main_v4 : S8192x1.Idx → Elt F .f32) = shapeCast S8192x1 (m ((c : Thread nD τ).loc main_arg1)) shapeCasts_S1x8192_S8192x1 := by
  show StableHlo.after hostOps1 (afterSpikes m c) (Proc.devRef .tc main_v4) = _
  after_results
  rw [afterSpikes_main_arg1 m c]
  rfl

/-- The outer-product region finds in `main_v0` the spikes as the spike region's write-backs left them. -/
theorem outer_finds_spikes (c : Dev nD) : outerEntry m c main_v0 = (dat0 (spikesEntry m) c).arrAt 5 cfg0.N :=
  (reshapes_keep m c main_v0 (by decide)).trans (afterSpikes_arr m c 5)

end Cert.KernelIdeal.Hand

end
-- ==== Proof.Spec.lean ====
/-
  What the two programs compute, as functions of the seven argument arrays over the extended reals.

  A layer of 8192 integrate-and-fire neurons receives an external drive `x` through the weights `w1` and its own
  previous spikes `x1` through the weights `w2`. Neuron `j`'s input current is the sum over all presynaptic
  indices `k` of `x k * w1 k j` plus the sum of `x1 k * w2 k j`; it fires (value one, else zero) when its membrane
  potential `mem j` plus that current exceeds one half. Each presynaptic trace decays by the factor `0.99` (its
  float pattern, read exactly) and gains the current activity; the weight update of synapse `(i, j)` is the
  product of the updated trace of `i` and the spike of `j`.
-/
import Idealize.ShloMosaic.PureOps.Ideal
import Idealize.ShloMosaic.Lib.ValueIdx

noncomputable section

namespace Cert.SpikeTrace

open Idealize.ShloMosaic Idealize.ShloMosaic.ValueIdx

/-- A row vector of 8192 entries, and a square matrix of that side. -/
abbrev Row : Shape := ⟨2, ![1, 8192]⟩
abbrev Mat : Shape := ⟨2, ![8192, 8192]⟩

/-- The firing threshold one half and the trace decay 0.99, each the exact value of its float pattern. -/
abbrev half : EReal := Ideal.ofBits .f32 0x3F000000#32
abbrev decay : EReal := Ideal.ofBits .f32 0x3F7D70A4#32

/-- The input current of neuron `j`: the external drive through `w1` plus the recurrent drive through `w2`,
    each a sum over all 8192 presynaptic indices. -/
def current (x x1 : Row.Idx → EReal) (w1 w2 : Mat.Idx → EReal) (j : Fin 8192) : EReal :=
  (∑ k : Fin 8192, x (ix2 0 k) * w1 (ix2 k j)) + ∑ k : Fin 8192, x1 (ix2 0 k) * w2 (ix2 k j)

/-- One if the potential exceeds the threshold, else zero: the comparison's bit read as an unsigned number. -/
def fire (v : EReal) : EReal :=
  FloatOps.uitofp (F := Ideal) .f32 (FloatOps.cmpf (F := Ideal) (φ := .f32) .ogt v half)

/-- The spikes: neuron `j` fires when its potential plus its input current exceeds the threshold. -/
def spike (x x1 mem : Row.Idx → EReal) (w1 w2 : Mat.Idx → EReal) : Row.Idx → EReal :=
  fun i => fire (mem i + current x x1 w1 w2 ⟨(i 1).val, (i 1).isLt⟩)

/-- The updated trace of presynaptic index `r`: the old trace decayed, plus the current activity. -/
def trace (tr act : Row.Idx → EReal) (r : Fin 8192) : EReal :=
  tr (ix2 0 r) * decay + act (ix2 0 r)

/-- The weight update: synapse `(i, j)` changes by the updated trace of `i` times the spike of `j`. -/
def hebb (tr act s : Row.Idx → EReal) : Mat.Idx → EReal :=
  fun ij => trace tr act ⟨(ij 0).val, (ij 0).isLt⟩ * s (ix2 0 ⟨(ij 1).val, (ij 1).isLt⟩)

end Cert.SpikeTrace

end
-- ==== Proof.SumBlocks.lean ====
/-
  Three small facts used on the kernel's side.

  The kernel sums the 8192 products of a row of the drive with a column of the weights in eight passes of
  1024 terms each, adding each pass to an accumulator that starts from zero; and it turns the outcome of the
  threshold comparison into a number by first widening the single bit to a 32-bit word and then reading that
  word as a signed integer. The facts below say that none of this changes the value: a sum over 8192 indices
  is the sum of its eight consecutive blocks, an accumulator that starts from zero holds the sum of everything
  added to it, and a single bit widened with zeros is the same number whether read signed or unsigned.
-/
import Mathlib.Algebra.BigOperators.Fin
import Mathlib.Logic.Equiv.Fin.Basic
import Mathlib.Data.Fintype.BigOperators
import proofs.«157642_j27358941675618_2_alg».proof.Proof.Spec

noncomputable section

namespace Cert.SpikeTrace

open Idealize.ShloMosaic

/-- A sum over the 8192 indices is the sum, over the 8 consecutive blocks of 1024 indices, of the block's
    own sum: index `k` is term `k % 1024` of block `k / 1024`. The order of summation is immaterial in a
    commutative monoid, so it is enough to pair each index with its (block, offset) pair one to one. -/
theorem sum_split_blocks {M : Type} [AddCommMonoid M] (f : Fin 8192 → M) :
    (∑ k : Fin 8192, f k) = ∑ kb : Fin 8, ∑ kk : Fin 1024, f ⟨kb.val * 1024 + kk.val, by omega⟩ := by
  rw [← Fintype.sum_prod_type' (f := fun (kb : Fin 8) (kk : Fin 1024) => f ⟨kb.val * 1024 + kk.val, by omega⟩)]
  refine (Fintype.sum_equiv (finProdFinEquiv (m := 8) (n := 1024)) _ _ (fun p => ?_)).symm
  refine congrArg f (Fin.ext ?_)
  show p.1.val * 1024 + p.2.val = p.2.val + 1024 * p.1.val
  omega

/-- An accumulator that starts from zero and at every step adds `g i + h i` holds, after step `n`, the sum of
    `g 0 … g n` plus the sum of `h 0 … h n`: induction on the step, regrouping four terms at each one. -/
theorem accumulate_eq {M : Type} [AddCommMonoid M] (g h : ℕ → M) (a : ℕ → M)
    (h0 : a 0 = 0 + (g 0 + h 0)) (hs : ∀ n, a (n + 1) = a n + (g (n + 1) + h (n + 1))) (n : ℕ) :
    a n = (∑ i ∈ Finset.range (n + 1), g i) + ∑ i ∈ Finset.range (n + 1), h i := by
  induction n with
  | zero => rw [h0, zero_add, Finset.sum_range_one, Finset.sum_range_one]
  | succ n ih =>
    rw [hs n, ih, Finset.sum_range_succ g (n + 1), Finset.sum_range_succ h (n + 1)]
    exact add_add_add_comm _ _ _ _

/-- The comparison yields one bit. Widened to 32 bits by zeros it is the word 0 or the word 1, whose signed
    reading is 0 or 1: exactly the unsigned reading of the bit itself. So the kernel's spike value is `fire`. -/
theorem fire_of_signed (v : EReal) :
    FloatOps.sitofp (F := Ideal) .f32 ((FloatOps.cmpf (F := Ideal) (φ := .f32) .ogt v half).setWidth 32) = fire v := by
  unfold fire
  rcases BitVec.eq_zero_or_eq_one (FloatOps.cmpf (F := Ideal) (φ := .f32) .ogt v half) with hb | hb
  · rw [hb]
    show ((((0#1 : BitVec 1).setWidth 32).toInt : ℝ) : EReal) = (((0#1 : BitVec 1).toNat : ℝ) : EReal)
    norm_num
  · rw [hb]
    show ((((1#1 : BitVec 1).setWidth 32).toInt : ℝ) : EReal) = (((1#1 : BitVec 1).toNat : ℝ) : EReal)
    norm_num

end Cert.SpikeTrace

end
-- ==== Proof.IdealSpikeLane.lean ====
/-
  The spike kernel's three payloads, read at one lane.

  A point of the grid multiplies a 1-by-1024 block of a drive by a 1024-by-2048 block of its weights. Over the
  extended reals, entry `q` of that product is the plain sum over the 1024 rows `kk` of the drive's entry `kk`
  times the weight at `(kk, q)`: the product starts from a zero accumulator and nothing is rounded. So the row
  the body leaves in its scratch gains, at lane `q`, the two such sums of this point's blocks; the row it starts
  from is zero at every lane; and the row of spikes is, at lane `q`, the threshold test of the potential plus the
  accumulated current there, turned into zero or one.
-/
import proofs.«157642_j27358941675618_2_alg».proof.Proof.IdealSpikePoints
import proofs.«157642_j27358941675618_2_alg».proof.Proof.Spec
import proofs.«157642_j27358941675618_2_alg».proof.Proof.SumBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open Cert.SpikeTrace

/-! ## One block product at a lane -/

/-- The left operand of the block product is read at the row of the output entry (its only row), -/
theorem blockDot_lhs_row (i : S1x2048.Idx) (k : dot_S1x1024_S1024x2048_S1x2048_1_0_0_1_n_n.contr.Idx) :
    (dot_S1x1024_S1024x2048_S1x2048_1_0_0_1_n_n.lhsIdx i k 0).val = (i 0).val := by
  unfold DotDims.lhsIdx
  rw [dif_neg (show ¬(0 : Fin S1x1024.rank) ∈ dot_S1x1024_S1024x2048_S1x2048_1_0_0_1_n_n.lhsBatch by decide),
    dif_pos (show (0 : Fin S1x1024.rank) ∈ dot_S1x1024_S1024x2048_S1x2048_1_0_0_1_n_n.lhsNonContracting by decide)]
  rfl

/-- and at the contracted index along its 1024 columns. -/
theorem blockDot_lhs_col (i : S1x2048.Idx) (k : dot_S1x1024_S1024x2048_S1x2048_1_0_0_1_n_n.contr.Idx) :
    (dot_S1x1024_S1024x2048_S1x2048_1_0_0_1_n_n.lhsIdx i k 1).val = (k ⟨0, by decide⟩).val :=
  dot_S1x1024_S1024x2048_S1x2048_1_0_0_1_n_n.lhsIdx_val_of_single rfl i k

/-- The right operand is read at the contracted index along its 1024 rows, -/
theorem blockDot_rhs_row (i : S1x2048.Idx) (k : dot_S1x1024_S1024x2048_S1x2048_1_0_0_1_n_n.contr.Idx) :
    (dot_S1x1024_S1024x2048_S1x2048_1_0_0_1_n_n.rhsIdx i k 0).val = (k ⟨0, by decide⟩).val :=
  dot_S1x1024_S1024x2048_S1x2048_1_0_0_1_n_n.rhsIdx_val_of_single rfl i k

/-- and at the column of the output entry. -/
theorem blockDot_rhs_col (i : S1x2048.Idx) (k : dot_S1x1024_S1024x2048_S1x2048_1_0_0_1_n_n.contr.Idx) :
    (dot_S1x1024_S1024x2048_S1x2048_1_0_0_1_n_n.rhsIdx i k 1).val = (i 1).val := by
  unfold DotDims.rhsIdx
  rw [dif_neg (show ¬(1 : Fin S1024x2048.rank) ∈ dot_S1x1024_S1024x2048_S1x2048_1_0_0_1_n_n.rhsBatch by decide),
    dif_pos (show (1 : Fin S1024x2048.rank) ∈ dot_S1x1024_S1024x2048_S1x2048_1_0_0_1_n_n.rhsNonContracting by decide)]
  rfl

/-- A block product into the zero row, at lane `q`: the sum over the block's 1024 rows of the drive's entry times
    the weight in that row and column `q`. -/
theorem blockProduct_at_lane (x : FVec Ideal S1x1024 .f32) (w : FVec Ideal S1024x2048 .f32) (q : Fin 2048) :
    matmul (F := Ideal) dot_S1x1024_S1024x2048_S1x2048_1_0_0_1_n_n (some .fp32) x w
        (constant (F := Ideal) S1x2048 .f32 0x00000000#32) (ix2 (0 : Fin 1) q)
      = ∑ kk : Fin 1024, x (ix2 (0 : Fin 1) kk) * w (ix2 kk q) := by
  simp only [matmul]
  rw [Ideal.matmul_constant_zero_apply,
    ← Equiv.sum_comp (contrEquiv1 dot_S1x1024_S1024x2048_S1x2048_1_0_0_1_n_n 1024 rfl rfl).symm]
  refine Finset.sum_congr rfl fun kk _ => ?_
  have hk := contrEquiv1_symm_val dot_S1x1024_S1024x2048_S1x2048_1_0_0_1_n_n 1024 rfl rfl kk
  have el : dot_S1x1024_S1024x2048_S1x2048_1_0_0_1_n_n.lhsIdx (ix2 (0 : Fin 1) q)
      ((contrEquiv1 dot_S1x1024_S1024x2048_S1x2048_1_0_0_1_n_n 1024 rfl rfl).symm kk) = ix2 (0 : Fin 1) kk :=
    funext fun a => Fin.ext (by
      match a with
      | ⟨0, _⟩ => exact blockDot_lhs_row _ _
      | ⟨1, _⟩ => exact (blockDot_lhs_col _ _).trans hk)
  have er : dot_S1x1024_S1024x2048_S1x2048_1_0_0_1_n_n.rhsIdx (ix2 (0 : Fin 1) q)
      ((contrEquiv1 dot_S1x1024_S1024x2048_S1x2048_1_0_0_1_n_n 1024 rfl rfl).symm kk) = ix2 kk q :=
    funext fun a => Fin.ext (by
      match a with
      | ⟨0, _⟩ => exact (blockDot_rhs_row _ _).trans hk
      | ⟨1, _⟩ => exact blockDot_rhs_col _ _)
  rw [el, er]

/-! ## The three rows at a lane -/

/-- The row the sum restarts from is zero at every lane. -/
theorem zeroRow_at_lane (q : Fin 2048) : k0_pay1 (F := Ideal) (ix2 (0 : Fin 1) q) = 0 := by
  unfold k0_pay1
  rw [shapeCast_self]
  exact Ideal.ofBits_zero_f32

/-- The row after a point, at lane `q`: what it was there, plus the drive's block product plus the recurrent
    drive's block product at that lane. -/
theorem addPartials_at_lane (acc : Vec Ideal S1x2048 .f32) (x0 x1 : Vec Ideal S1x1024 .f32)
    (x2 x3 : Vec Ideal S1024x2048 .f32) (q : Fin 2048) :
    addPartials acc x0 x1 x2 x3 (ix2 (0 : Fin 1) q)
      = acc (ix2 (0 : Fin 1) q)
        + ((∑ kk : Fin 1024, x0 (ix2 (0 : Fin 1) kk) * x2 (ix2 kk q))
          + ∑ kk : Fin 1024, x1 (ix2 (0 : Fin 1) kk) * x3 (ix2 kk q)) := by
  unfold addPartials k0_pay2
  rw [shapeCast_self, addf_apply, addf_apply]
  exact congrArg₂ (fun a b => acc (ix2 (0 : Fin 1) q) + (a + b)) (blockProduct_at_lane x0 x2 q) (blockProduct_at_lane x1 x3 q)

/-- The spikes' row at lane `q`: one if the potential plus the accumulated current there exceeds one half, else
    zero. The kernel widens the comparison's bit to a word and reads it signed, which is the same number. -/
theorem spikes_at_lane (pot acc : Vec Ideal S1x2048 .f32) (q : Fin 2048) :
    k0_pay3 pot acc (ix2 (0 : Fin 1) q) = fire (pot (ix2 (0 : Fin 1) q) + acc (ix2 (0 : Fin 1) q)) := by
  unfold k0_pay3
  rw [sitofp_apply, extui_apply, cmpf_apply, addf_apply, broadcast_apply]
  exact fire_of_signed _

end Cert.KernelIdeal.Hand

end
-- ==== Proof.IdealSpikeBlocks.lean ====
/-
  The spike kernel's blocks, read off the arrays.

  Point `t` of the 32 works on presynaptic block `t % 8` (1024 consecutive presynaptic indices) and column block
  `t / 8` (2048 consecutive neurons). Its block of a drive is the drive at presynaptic indices
  `(t % 8) * 1024 + kk`; its block of a weight matrix is the matrix at those rows and at columns
  `(t / 8) * 2048 + q`; its block of the potentials, and the block of the spikes it writes back, sit at those
  columns too. Each is the general fact that an element of a block sits, on every axis, at the block's index times
  the block's extent plus the element's own coordinate, with the block indices read off the kernel's index maps.
-/
import proofs.«157642_j27358941675618_2_alg».proof.Proof.IdealSpikePoints
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

/-- The block indices of the six windows at every point: the drives move along the presynaptic blocks, the weights
    along both, the potentials and the spikes along the column blocks. -/
theorem blockIndex_facts : ∀ t : Fin cfg0.N,
    (win0_0.index t (0 : Fin 2) = 0 ∧ win0_0.index t (1 : Fin 2) = t.val % 8)
    ∧ (win0_1.index t (0 : Fin 2) = 0 ∧ win0_1.index t (1 : Fin 2) = t.val % 8)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = 0 ∧ win0_4.index t (1 : Fin 2) = t.val / 8)
    ∧ (win0_5.index t (0 : Fin 2) = 0 ∧ win0_5.index t (1 : Fin 2) = t.val / 8) :=
  (by decide +kernel : ∀ t : Fin grid0.N,
    (win0_0.index t (0 : Fin 2) = 0 ∧ win0_0.index t (1 : Fin 2) = t.val % 8)
    ∧ (win0_1.index t (0 : Fin 2) = 0 ∧ win0_1.index t (1 : Fin 2) = t.val % 8)
    ∧ (win0_2.index t (0 : Fin 2) = t.val % 8 ∧ win0_2.index t (1 : Fin 2) = t.val / 8)
    ∧ (win0_3.index t (0 : Fin 2) = t.val % 8 ∧ win0_3.index t (1 : Fin 2) = t.val / 8)
    ∧ (win0_4.index t (0 : Fin 2) = 0 ∧ win0_4.index t (1 : Fin 2) = t.val / 8)
    ∧ (win0_5.index t (0 : Fin 2) = 0 ∧ win0_5.index t (1 : Fin 2) = t.val / 8))

/-- Column `q` of point `t`'s column block is a neuron below 8192. -/
theorem col_lt (t : Fin cfg0.N) (q : Fin 2048) : t.val / 8 * 2048 + q.val < 8192 := by
  have hN : cfg0.N = 32 := N_0
  have := t.isLt
  omega

/-- The presynaptic index of row `kk` of point `t`'s presynaptic block. -/
abbrev preOf (t : Fin cfg0.N) (kk : Fin 1024) : Fin 8192 := ⟨t.val % 8 * 1024 + kk.val, by omega⟩
/-- The neuron of column `q` of point `t`'s column block. -/
abbrev neuronOf (t : Fin cfg0.N) (q : Fin 2048) : Fin 8192 := ⟨t.val / 8 * 2048 + q.val, col_lt t q⟩

/-- The drive's block at point `t`, entry `kk`: the drive at the block's presynaptic index. -/
theorem drive_block_at (c : Dev nD) (t : Fin cfg0.N) (kk : Fin 1024) :
    iblk0 V c 0 t (ix2 (0 : Fin 1) kk) = V c main_arg0 (ix2 (0 : Fin 1) (preOf t kk)) := by
  unfold iblk0
  rw [View.read_apply]
  show V c main_arg0 _ = V c main_arg0 _
  refine congrArg (V c main_arg0) (funext fun a => Fin.ext ?_)
  match a with
  | ⟨0, _⟩ =>
    show win0_0.index t (0 : Fin 2) * 1 + 1 * 0 = 0
    rw [(blockIndex_facts t).1.1]
  | ⟨1, _⟩ =>
    show win0_0.index t (1 : Fin 2) * 1024 + 1 * kk.val = t.val % 8 * 1024 + kk.val
    rw [(blockIndex_facts t).1.2]; omega

/-- The recurrent drive's block at point `t`, entry `kk`. -/
theorem recur_block_at (c : Dev nD) (t : Fin cfg0.N) (kk : Fin 1024) :
    iblk0 V c 1 t (ix2 (0 : Fin 1) kk) = V c main_arg1 (ix2 (0 : Fin 1) (preOf t kk)) := by
  unfold iblk0
  rw [View.read_apply]
  show V c main_arg1 _ = V c main_arg1 _
  refine congrArg (V c main_arg1) (funext fun a => Fin.ext ?_)
  match a with
  | ⟨0, _⟩ =>
    show win0_1.index t (0 : Fin 2) * 1 + 1 * 0 = 0
    rw [(blockIndex_facts t).2.1.1]
  | ⟨1, _⟩ =>
    show win0_1.index t (1 : Fin 2) * 1024 + 1 * kk.val = t.val % 8 * 1024 + kk.val
    rw [(blockIndex_facts t).2.1.2]; omega

/-- The first weights' block at point `t`, entry `(kk, q)`: the weight from the block's presynaptic index to the
    block's neuron. -/
theorem weight_block_at (c : Dev nD) (t : Fin cfg0.N) (kk : Fin 1024) (q : Fin 2048) :
    iblk0 V c 2 t (ix2 kk q) = V c main_arg5 (ix2 (preOf t kk) (neuronOf t q)) := by
  unfold iblk0
  rw [View.read_apply]
  show V c main_arg5 _ = V c main_arg5 _
  refine congrArg (V c main_arg5) (funext fun a => Fin.ext ?_)
  match a with
  | ⟨0, _⟩ =>
    show win0_2.index t (0 : Fin 2) * 1024 + 1 * kk.val = t.val % 8 * 1024 + kk.val
    rw [(blockIndex_facts t).2.2.1.1]; omega
  | ⟨1, _⟩ =>
    show win0_2.index t (1 : Fin 2) * 2048 + 1 * q.val = t.val / 8 * 2048 + q.val
    rw [(blockIndex_facts t).2.2.1.2]; omega

/-- The recurrent weights' block at point `t`, entry `(kk, q)`. -/
theorem recur_weight_block_at (c : Dev nD) (t : Fin cfg0.N) (kk : Fin 1024) (q : Fin 2048) :
    iblk0 V c 3 t (ix2 kk q) = V c main_arg6 (ix2 (preOf t kk) (neuronOf t q)) := by
  unfold iblk0
  rw [View.read_apply]
  show V c main_arg6 _ = V c main_arg6 _
  refine congrArg (V c main_arg6) (funext fun a => Fin.ext ?_)
  match a with
  | ⟨0, _⟩ =>
    show win0_3.index t (0 : Fin 2) * 1024 + 1 * kk.val = t.val % 8 * 1024 + kk.val
    rw [(blockIndex_facts t).2.2.2.1.1]; omega
  | ⟨1, _⟩ =>
    show win0_3.index t (1 : Fin 2) * 2048 + 1 * q.val = t.val / 8 * 2048 + q.val
    rw [(blockIndex_facts t).2.2.2.1.2]; omega

/-- The potentials' block at point `t`, lane `q`: the potential of the block's neuron. -/
theorem potential_block_at (c : Dev nD) (t : Fin cfg0.N) (q : Fin 2048) :
    iblk0 V c 4 t (ix2 (0 : Fin 1) q) = V c main_arg2 (ix2 (0 : Fin 1) (neuronOf t q)) := by
  unfold iblk0
  rw [View.read_apply]
  show V c main_arg2 _ = V c main_arg2 _
  refine congrArg (V c main_arg2) (funext fun a => Fin.ext ?_)
  match a with
  | ⟨0, _⟩ =>
    show win0_4.index t (0 : Fin 2) * 1 + 1 * 0 = 0
    rw [(blockIndex_facts t).2.2.2.2.1.1]
  | ⟨1, _⟩ =>
    show win0_4.index t (1 : Fin 2) * 2048 + 1 * q.val = t.val / 8 * 2048 + q.val
    rw [(blockIndex_facts t).2.2.2.2.1.2]; omega

/-- Any contents of the spikes' array, read through the block point `t` writes back, at lane `q`: the contents at the
    block's neuron. -/
theorem spikes_block_read_at (c : Dev nD) (G : Buf (Elt F) ((c : Thread nD τ).loc main_v0)) (t : Fin cfg0.N) (q : Fin 2048) :
    ((cfg0.win 5).blk t).view.read (Elt F) G (ix2 (0 : Fin 1) q) = G (ix2 (0 : Fin 1) (neuronOf t q)) := by
  rw [View.read_apply]
  show G _ = G _
  refine congrArg G (funext fun a => Fin.ext ?_)
  match a with
  | ⟨0, _⟩ =>
    show win0_5.index t (0 : Fin 2) * 1 + 1 * 0 = 0
    rw [(blockIndex_facts t).2.2.2.2.2.1]
  | ⟨1, _⟩ =>
    show win0_5.index t (1 : Fin 2) * 2048 + 1 * q.val = t.val / 8 * 2048 + q.val
    rw [(blockIndex_facts t).2.2.2.2.2.2]; omega

end Cert.KernelIdeal.Hand

end
-- ==== Proof.IdealSpikeCurrent.lean ====
/-
  A neuron's input current, block by block.

  The current into neuron `j` through one weight matrix is a sum over all 8192 presynaptic indices. Cut into the
  eight consecutive blocks of 1024 indices, it is the sum of the eight blocks' own sums. Block `i` is named by
  `i % 8`, so that the name makes sense for every natural number and two numbers that agree modulo 8 name the
  same block.
-/
import proofs.«157642_j27358941675618_2_alg».proof.Proof.Spec
import proofs.«157642_j27358941675618_2_alg».proof.Proof.SumBlocks

noncomputable section

namespace Cert.SpikeTrace

open Idealize.ShloMosaic Idealize.ShloMosaic.ValueIdx

/-- The part of neuron `j`'s current through `w` that comes from presynaptic block `i % 8`: the sum over the block's
    1024 indices of the activity there times the weight from there to `j`. -/
def blockCurrent (x : Row.Idx → EReal) (w : Mat.Idx → EReal) (j : Fin 8192) (i : ℕ) : EReal :=
  ∑ kk : Fin 1024, x (ix2 (0 : Fin 1) (⟨i % 8 * 1024 + kk.val, by omega⟩ : Fin 8192))
    * w (ix2 (⟨i % 8 * 1024 + kk.val, by omega⟩ : Fin 8192) j)

/-- Numbers that agree modulo 8 name the same block. -/
theorem blockCurrent_congr (x : Row.Idx → EReal) (w : Mat.Idx → EReal) (j : Fin 8192) {i i' : ℕ} (h : i % 8 = i' % 8) :
    blockCurrent x w j i = blockCurrent x w j i' := by
  unfold blockCurrent
  refine Finset.sum_congr rfl fun kk _ => ?_
  have e : (⟨i % 8 * 1024 + kk.val, by omega⟩ : Fin 8192) = ⟨i' % 8 * 1024 + kk.val, by omega⟩ :=
    Fin.ext (by show i % 8 * 1024 + kk.val = i' % 8 * 1024 + kk.val; rw [h])
  rw [e]

/-- The eight blocks' parts add up to the whole sum over the presynaptic indices. -/
theorem sum_blockCurrent (x : Row.Idx → EReal) (w : Mat.Idx → EReal) (j : Fin 8192) :
    ∑ i ∈ Finset.range 8, blockCurrent x w j i = ∑ k : Fin 8192, x (ix2 (0 : Fin 1) k) * w (ix2 k j) := by
  rw [sum_split_blocks (fun k : Fin 8192 => x (ix2 (0 : Fin 1) k) * w (ix2 k j)),
    ← Fin.sum_univ_eq_sum_range (fun i => blockCurrent x w j i) 8]
  refine Finset.sum_congr rfl fun kb _ => ?_
  unfold blockCurrent
  refine Finset.sum_congr rfl fun kk _ => ?_
  have e : (⟨kb.val % 8 * 1024 + kk.val, by omega⟩ : Fin 8192) = ⟨kb.val * 1024 + kk.val, by omega⟩ :=
    Fin.ext (by show kb.val % 8 * 1024 + kk.val = kb.val * 1024 + kk.val; omega)
  rw [e]

/-- So a neuron's whole current is the eight block parts through the first matrix plus the eight through the second. -/
theorem current_eq_blocks (x x1 : Row.Idx → EReal) (w1 w2 : Mat.Idx → EReal) (j : Fin 8192) :
    current x x1 w1 w2 j
      = (∑ i ∈ Finset.range 8, blockCurrent x w1 j i) + ∑ i ∈ Finset.range 8, blockCurrent x1 w2 j i := by
  rw [sum_blockCurrent, sum_blockCurrent]
  rfl

end Cert.SpikeTrace

end
-- ==== Proof.IdealSpikeValue.lean ====
/-
  What the spike kernel leaves in its result array.

  Within a column block of 2048 neurons the kernel visits the eight presynaptic blocks in order; the scratch row
  restarts from zero at the first and gains, at each, that block's part of every neuron's current. By induction
  over the presynaptic blocks the row holds, after block `n`, the parts of blocks `0 … n`; after the eighth it
  holds each neuron's whole current. There the kernel adds the potentials, thresholds, and writes the row of
  spikes back to columns `jb * 2048 … jb * 2048 + 2047` of the result. The four write-backs tile the 8192 columns,
  so the result array ends at the specification's spikes.
-/
import proofs.«157642_j27358941675618_2_alg».proof.Proof.IdealSpikeLane
import proofs.«157642_j27358941675618_2_alg».proof.Proof.IdealSpikeBlocks
import proofs.«157642_j27358941675618_2_alg».proof.Proof.IdealSpikeCurrent

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.SpikeTrace

variable (V : (c : Dev nD) → (b : Ref sig .tc) → Buf (Elt Ideal) ((c : Thread nD τ).loc b))

/-! ## One point's contribution at a lane -/

/-- The row after point `t`, at lane `q`: what it was there plus the parts of the neuron's two currents that come from
    this point's presynaptic block. -/
theorem step_at_lane (c : Dev nD) (acc : Vec Ideal S1x2048 .f32) (t : Fin cfg0.N) (q : Fin 2048) :
    step V c acc t (ix2 (0 : Fin 1) q)
      = acc (ix2 (0 : Fin 1) q)
        + (blockCurrent (V c main_arg0) (V c main_arg5) (neuronOf t q) t.val
          + blockCurrent (V c main_arg1) (V c main_arg6) (neuronOf t q) t.val) := by
  refine (addPartials_at_lane acc (iblk0 V c 0 t) (iblk0 V c 1 t) (iblk0 V c 2 t) (iblk0 V c 3 t) q).trans ?_
  unfold blockCurrent
  refine congrArg₂ (fun a b => acc (ix2 (0 : Fin 1) q) + (a + b))
    (Finset.sum_congr rfl fun kk _ => ?_) (Finset.sum_congr rfl fun kk _ => ?_)
  · exact congrArg₂ (· * ·) (drive_block_at V c t kk) (weight_block_at V c t kk q)
  · exact congrArg₂ (· * ·) (recur_block_at V c t kk) (recur_weight_block_at V c t kk q)

/-! ## The running sum along a column block -/

/-- Presynaptic block `n` of column block `jb` is a point of the grid. -/
theorem point_lt (jb : Fin 4) (n : ℕ) (hn : n < 8) : jb.val * 8 + n < cfg0.N := by
  have hN : cfg0.N = 32 := N_0
  omega

/-- Lane `q` of column block `jb` is a neuron below 8192. -/
abbrev columnNeuron (jb : Fin 4) (q : Fin 2048) : Fin 8192 := ⟨jb.val * 2048 + q.val, by omega⟩

/-- Away from a first presynaptic block the running sum continues from the point before. -/
theorem runningSum_succ (c : Dev nD) (m : ℕ) (hm : m + 1 < cfg0.N) (h0 : ¬(m + 1) % 8 = 0) :
    runningSum V c (m + 1) hm = step V c (runningSum V c m (Nat.lt_of_succ_lt hm)) ⟨m + 1, hm⟩ := if_neg h0

/-- After presynaptic block `n` of column block `jb` the scratch row holds, at lane `q`, the parts of that neuron's two
    currents from blocks `0 … n`: it restarts from zero at block 0 and gains one block's parts at each point. -/
theorem runningSum_at_lane (c : Dev nD) (jb : Fin 4) (q : Fin 2048) : ∀ (n : ℕ) (hn : n < 8),
    runningSum V c (jb.val * 8 + n) (point_lt jb n hn) (ix2 (0 : Fin 1) q)
      = (∑ i ∈ Finset.range (n + 1), blockCurrent (V c main_arg0) (V c main_arg5) (columnNeuron jb q) i)
        + ∑ i ∈ Finset.range (n + 1), blockCurrent (V c main_arg1) (V c main_arg6) (columnNeuron jb q) i := by
  intro n
  induction n with
  | zero =>
    intro hn
    have hfirst := runningSum_first V c ⟨jb.val * 8 + 0, point_lt jb 0 hn⟩ (by show (jb.val * 8 + 0) % 8 = 0; omega)
    refine (congrFun hfirst _).trans ?_
    refine (step_at_lane V c (k0_pay1 (F := Ideal)) ⟨jb.val * 8 + 0, point_lt jb 0 hn⟩ q).trans ?_
    rw [zeroRow_at_lane, zero_add, Finset.sum_range_one, Finset.sum_range_one]
    have hj : neuronOf ⟨jb.val * 8 + 0, point_lt jb 0 hn⟩ q = columnNeuron jb q :=
      Fin.ext (by show (jb.val * 8 + 0) / 8 * 2048 + q.val = jb.val * 2048 + q.val; omega)
    rw [hj]
    exact congrArg₂ (· + ·)
      (blockCurrent_congr _ _ _ (by show (jb.val * 8 + 0) % 8 = 0 % 8; omega))
      (blockCurrent_congr _ _ _ (by show (jb.val * 8 + 0) % 8 = 0 % 8; omega))
  | succ n ih =>
    intro hn
    have hnext := runningSum_succ V c (jb.val * 8 + n) (point_lt jb (n + 1) hn) (by omega)
    refine (congrFun hnext _).trans ?_
    refine (step_at_lane V c _ ⟨jb.val * 8 + n + 1, point_lt jb (n + 1) hn⟩ q).trans ?_
    rw [ih (by omega), Finset.sum_range_succ _ (n + 1), Finset.sum_range_succ _ (n + 1)]
    have hj : neuronOf ⟨jb.val * 8 + n + 1, point_lt jb (n + 1) hn⟩ q = columnNeuron jb q :=
      Fin.ext (by show (jb.val * 8 + n + 1) / 8 * 2048 + q.val = jb.val * 2048 + q.val; omega)
    rw [hj, blockCurrent_congr (V c main_arg0) (V c main_arg5) (columnNeuron jb q)
        (show (jb.val * 8 + n + 1) % 8 = (n + 1) % 8 by omega),
      blockCurrent_congr (V c main_arg1) (V c main_arg6) (columnNeuron jb q)
        (show (jb.val * 8 + n + 1) % 8 = (n + 1) % 8 by omega)]
    exact add_add_add_comm _ _ _ _

/-- At the last presynaptic block of a column block the scratch row holds each neuron's whole input current. -/
theorem runningSum_last (c : Dev nD) (t : Fin cfg0.N) (h7 : t.val % 8 = 7) (q : Fin 2048) :
    runningSum V c t.val t.isLt (ix2 (0 : Fin 1) q)
      = current (V c main_arg0) (V c main_arg1) (V c main_arg5) (V c main_arg6) (neuronOf t q) := by
  have hN : cfg0.N = 32 := N_0
  have ht := t.isLt
  have hjb : t.val / 8 < 4 := by omega
  have hrun := runningSum_at_lane V c ⟨t.val / 8, hjb⟩ q 7 (by omega)
  have hpt : t = ⟨t.val / 8 * 8 + 7, point_lt ⟨t.val / 8, hjb⟩ 7 (by omega)⟩ := Fin.ext (by show t.val = t.val / 8 * 8 + 7; omega)
  rw [current_eq_blocks]
  refine Eq.trans ?_ hrun
  exact congrFun (congrArg (fun s : Fin cfg0.N => runningSum V c s.val s.isLt) hpt) _

/-! ## The block written back, and the array -/

/-- What a last presynaptic block writes back is the specification's spikes, read through that point's block. -/
theorem flushed0_5 (c : Dev nD) (t : Fin cfg0.N) (hf : (cfg0.win 5).flush t = true) :
    (dat0 (F := Ideal) V c).flushed 5 t
      = ((cfg0.win 5).blk t).view.read (Elt Ideal)
          (spike (V c main_arg0) (V c main_arg1) (V c main_arg2) (V c main_arg5) (V c main_arg6)) := by
  have h7 : t.val % 8 = 7 := (flush0_5 t).mp hf
  show (cfg0.win 5).cut (grid0.coords t) ((dat0 (F := Ideal) V c).after 5 t) = _
  rw [after0_5]
  funext y
  obtain ⟨p, q, rfl⟩ : ∃ (p : Fin 1) (q : Fin 2048), y = ix2 p q := ⟨y 0, y 1, eq_ix2 (n0 := 1) (n1 := 2048) y⟩
  obtain rfl : p = 0 := Subsingleton.elim _ _
  refine Eq.trans ?_ (spikes_block_read_at (F := Ideal) c _ t q).symm
  show spikesBlock V c t (ix2 (0 : Fin 1) q) = _
  refine (spikes_at_lane (iblk0 V c 4 t) (runningSum V c t.val t.isLt) q).trans ?_
  exact congrArg fire (congrArg₂ (fun a b : EReal => a + b) (potential_block_at V c t q) (runningSum_last V c t h7 q))

/-- Neuron `j`'s column is written back by the last presynaptic block of column block `j / 2048`. -/
theorem cover0_5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 32 := N_0
  have h0 : (i 0 : Nat) < 1 := (i 0).isLt
  have h1 : (i 1 : Nat) < 8192 := (i 1).isLt
  have hpt : (i 1 : Nat) / 2048 * 8 + 7 < cfg0.N := by omega
  have hidx := (blockIndex_facts ⟨(i 1 : Nat) / 2048 * 8 + 7, hpt⟩).2.2.2.2.2
  refine ⟨⟨(i 1 : Nat) / 2048 * 8 + 7, hpt⟩, (flush0_5 _).mpr (by show ((i 1 : Nat) / 2048 * 8 + 7) % 8 = 7; omega), ?_⟩
  show i ∈ ((View.whole main_v0).slice (win0_5.rect ⟨(i 1 : Nat) / 2048 * 8 + 7, hpt⟩)).set
  rw [View.set_slice_whole, Rect.mem_set_unit]
  intro a
  match a with
  | ⟨0, _⟩ =>
    show win0_5.index ⟨(i 1 : Nat) / 2048 * 8 + 7, hpt⟩ (0 : Fin 2) * 1 ≤ (i 0 : Nat)
      ∧ (i 0 : Nat) < win0_5.index ⟨(i 1 : Nat) / 2048 * 8 + 7, hpt⟩ (0 : Fin 2) * 1 + 1
    rw [hidx.1]; omega
  | ⟨1, _⟩ =>
    show win0_5.index ⟨(i 1 : Nat) / 2048 * 8 + 7, hpt⟩ (1 : Fin 2) * 2048 ≤ (i 1 : Nat)
      ∧ (i 1 : Nat) < win0_5.index ⟨(i 1 : Nat) / 2048 * 8 + 7, hpt⟩ (1 : Fin 2) * 2048 + 2048
    rw [hidx.2]
    show ((i 1 : Nat) / 2048 * 8 + 7) / 8 * 2048 ≤ (i 1 : Nat) ∧ (i 1 : Nat) < ((i 1 : Nat) / 2048 * 8 + 7) / 8 * 2048 + 2048
    omega

/-- The result array of the spike kernel ends at the specification's spikes of the arrays the region found. -/
theorem final0_5 (V : (c : Dev nD) → (b : Ref sig .tc) → Buf (Elt Ideal) ((c : Thread nD τ).loc b)) (c : Dev nD) :
    (dat0 (F := Ideal) V c).arrAt 5 cfg0.N
      = spike (V c main_arg0) (V c main_arg1) (V c main_arg2) (V c main_arg5) (V c main_arg6) :=
  (dat0 (F := Ideal) V c).arrAt_eq_of_cover 5 _ (flushed0_5 V c) (cover0_5 c)

end Cert.KernelIdeal.Hand

end
-- ==== Proof.IdealOuterValue.lean ====
/-
  What the outer-product call leaves in the two weight-update arrays, as whole-array functions of the contents the call
  found, over the extended reals.

  At grid point (i, j) the body fills the 512 × 2048 tile of rows 512·i … and columns 2048·j … with
  (trace · decay + activity) ⊗ spikes, reading the column vectors at the tile's rows and the spike row at the tile's
  columns. Entry (r, q) of a tile therefore depends on its own row of the column vectors and its own column of the spike
  row only, so every tile is a block of ONE function of the array index, and since the 64 tiles cover the 8192 × 8192
  array, that function is the array after the call.
-/
import proofs.«157642_j27358941675618_2_alg».proof.Proof.IdealOuter
import proofs.«157642_j27358941675618_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## One column broadcast over many -/

/-- An `[a, 1]` array broadcast to `[a, b]` reads, at `(p, q)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry of a tile -/

/-- The zero offsets of a whole-buffer access, as a constant function. -/
theorem zeroOffsets : (![0, 0] : Fin 2 → Nat) = fun _ => 0 := funext fun a => by fin_cases a <;> rfl

/-- Entry `(p, q)` of the first tile's payload: row `p` of the decayed trace plus activity, times column `q` of the spikes. -/
theorem pay2_apply (x0 x1 : Vec Ideal S512x1 .f32) (x4 : Vec Ideal S1x2048 .f32) (p : Fin 512) (q : Fin 2048) :
    k1_pay2 x0 x1 x4 (ix2 p q)
      = (x0 (ix2 p 0) * Cert.SpikeTrace.decay + x1 (ix2 p 0)) * x4 (ix2 0 q) := by
  unfold k1_pay2 k1_pay1
  dsimp only
  rw [mulf_apply, broadcastTo_a1_ab_apply, broadcastTo_1b_ab_apply, addf_apply, mulf_apply]
  simp only [shapeCast_self, broadcast_apply]
  rfl

/-- Entry `(p, q)` of the second tile's payload: the same of the second trace and activity. -/
theorem pay3_apply (x2 x3 : Vec Ideal S512x1 .f32) (x4 : Vec Ideal S1x2048 .f32) (p : Fin 512) (q : Fin 2048) :
    k1_pay3 x2 x3 x4 (ix2 p q)
      = (x2 (ix2 p 0) * Cert.SpikeTrace.decay + x3 (ix2 p 0)) * x4 (ix2 0 q) := by
  unfold k1_pay3 k1_pay1
  dsimp only
  rw [mulf_apply, broadcastTo_a1_ab_apply, broadcastTo_1b_ab_apply, addf_apply, mulf_apply]
  simp only [shapeCast_self, broadcast_apply]
  rfl

/-- So the tile the body leaves in the first output buffer, entry by entry: its one store covers the buffer, and every
    load is of a whole block. -/
theorem out1_5_apply (x0 x1 : Vec Ideal S512x1 .f32) (x4 : Vec Ideal S1x2048 .f32) (p : Fin 512) (q : Fin 2048) :
    out1_5 x0 x1 x4 (ix2 p q) = (x0 (ix2 p 0) * Cert.SpikeTrace.decay + x1 (ix2 p 0)) * x4 (ix2 0 q) := by
  unfold out1_5
  rw [View.canon_unit_zero zeroOffsets]
  simp only [View.ld_unit_zero (S := S512x1) zeroOffsets, View.ld_unit_zero (S := S1x2048) zeroOffsets]
  exact pay2_apply x0 x1 x4 p q

theorem out1_6_apply (x2 x3 : Vec Ideal S512x1 .f32) (x4 : Vec Ideal S1x2048 .f32) (p : Fin 512) (q : Fin 2048) :
    out1_6 x2 x3 x4 (ix2 p q) = (x2 (ix2 p 0) * Cert.SpikeTrace.decay + x3 (ix2 p 0)) * x4 (ix2 0 q) := by
  unfold out1_6
  rw [View.canon_unit_zero zeroOffsets]
  simp only [View.ld_unit_zero (S := S512x1) zeroOffsets, View.ld_unit_zero (S := S1x2048) zeroOffsets]
  exact pay3_apply x2 x3 x4 p q

/-! ## Where the blocks sit

Over the 64 grid points, decided once: the four column windows sit at the output tile's row block (and at column block
zero of their one column), the spike window at the tile's column block (and row block zero), both outputs' tiles at the
same place; and point `t` is tile `(t / 4, t % 4)`. -/

theorem tile_index_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = win1_5.index t (0 : Fin 2) ∧ win1_3.index t (1 : Fin 2) = 0
    ∧ win1_4.index t (0 : Fin 2) = 0 ∧ win1_4.index t (1 : Fin 2) = win1_5.index t (1 : Fin 2)
    ∧ win1_6.index t (0 : Fin 2) = win1_5.index t (0 : Fin 2) ∧ win1_6.index t (1 : Fin 2) = win1_5.index t (1 : Fin 2)
    ∧ win1_5.index t (0 : Fin 2) = t.val / 4 ∧ win1_5.index t (1 : Fin 2) = t.val % 4 :=
  (by decide +kernel : ∀ t : Fin grid1.N, _)

variable (V : (c : Dev nD) → (b : Ref sig .tc) → Buf (Elt Ideal) ((c : Thread nD τ).loc b))

/-! ## Each input block read in the array's own coordinates

Row `p` of a column block at point `t` is row `512 · (row block) + p` of the column vector; entry `q` of the spike
block is entry `2048 · (column block) + q` of the spike row. Stated with the array's coordinate `r` a variable tied to the
block's by an equation. -/

theorem iblk1_0_apply (c : Dev nD) (t : Fin cfg1.N) (p : Fin 512) (r : Fin 8192) (hr : r.val = win1_5.index t (0 : Fin 2) * 512 + p.val) :
    (iblk1 V c 0 t : Vec Ideal S512x1 .f32) (ix2 p 0) = (V c main_v1 : S8192x1.Idx → EReal) (ix2 r 0) := by
  obtain ⟨e0, e1, -⟩ := tile_index_facts t
  show V c main_v1 (((cfg1.win 0).blk t).view.emb (ix2 p 0)) = V c main_v1 (ix2 r 0)
  refine congrArg _ (funext fun a => Fin.ext ?_)
  match a with
  | ⟨0, _⟩ => show win1_0.index t (0 : Fin 2) * 512 + 1 * p.val = r.val; omega
  | ⟨1, _⟩ => show win1_0.index t (1 : Fin 2) * 1 + 1 * 0 = 0; omega

theorem iblk1_1_apply (c : Dev nD) (t : Fin cfg1.N) (p : Fin 512) (r : Fin 8192) (hr : r.val = win1_5.index t (0 : Fin 2) * 512 + p.val) :
    (iblk1 V c 1 t : Vec Ideal S512x1 .f32) (ix2 p 0) = (V c main_v2 : S8192x1.Idx → EReal) (ix2 r 0) := by
  obtain ⟨-, -, e0, e1, -⟩ := tile_index_facts t
  show V c main_v2 (((cfg1.win 1).blk t).view.emb (ix2 p 0)) = V c main_v2 (ix2 r 0)
  refine congrArg _ (funext fun a => Fin.ext ?_)
  match a with
  | ⟨0, _⟩ => show win1_1.index t (0 : Fin 2) * 512 + 1 * p.val = r.val; omega
  | ⟨1, _⟩ => show win1_1.index t (1 : Fin 2) * 1 + 1 * 0 = 0; omega

theorem iblk1_2_apply (c : Dev nD) (t : Fin cfg1.N) (p : Fin 512) (r : Fin 8192) (hr : r.val = win1_5.index t (0 : Fin 2) * 512 + p.val) :
    (iblk1 V c 2 t : Vec Ideal S512x1 .f32) (ix2 p 0) = (V c main_v3 : S8192x1.Idx → EReal) (ix2 r 0) := by
  obtain ⟨-, -, -, -, e0, e1, -⟩ := tile_index_facts t
  show V c main_v3 (((cfg1.win 2).blk t).view.emb (ix2 p 0)) = V c main_v3 (ix2 r 0)
  refine congrArg _ (funext fun a => Fin.ext ?_)
  match a with
  | ⟨0, _⟩ => show win1_2.index t (0 : Fin 2) * 512 + 1 * p.val = r.val; omega
  | ⟨1, _⟩ => show win1_2.index t (1 : Fin 2) * 1 + 1 * 0 = 0; omega

theorem iblk1_3_apply (c : Dev nD) (t : Fin cfg1.N) (p : Fin 512) (r : Fin 8192) (hr : r.val = win1_5.index t (0 : Fin 2) * 512 + p.val) :
    (iblk1 V c 3 t : Vec Ideal S512x1 .f32) (ix2 p 0) = (V c main_v4 : S8192x1.Idx → EReal) (ix2 r 0) := by
  obtain ⟨-, -, -, -, -, -, e0, e1, -⟩ := tile_index_facts t
  show V c main_v4 (((cfg1.win 3).blk t).view.emb (ix2 p 0)) = V c main_v4 (ix2 r 0)
  refine congrArg _ (funext fun a => Fin.ext ?_)
  match a with
  | ⟨0, _⟩ => show win1_3.index t (0 : Fin 2) * 512 + 1 * p.val = r.val; omega
  | ⟨1, _⟩ => show win1_3.index t (1 : Fin 2) * 1 + 1 * 0 = 0; omega

theorem iblk1_4_apply (c : Dev nD) (t : Fin cfg1.N) (q : Fin 2048) (r : Fin 8192) (hr : r.val = win1_5.index t (1 : Fin 2) * 2048 + q.val) :
    (iblk1 V c 4 t : Vec Ideal S1x2048 .f32) (ix2 0 q) = (V c main_v0 : S1x8192.Idx → EReal) (ix2 0 r) := by
  obtain ⟨-, -, -, -, -, -, -, -, e0, e1, -⟩ := tile_index_facts t
  show V c main_v0 (((cfg1.win 4).blk t).view.emb (ix2 0 q)) = V c main_v0 (ix2 0 r)
  refine congrArg _ (funext fun a => Fin.ext ?_)
  match a with
  | ⟨0, _⟩ => show win1_4.index t (0 : Fin 2) * 1 + 1 * 0 = 0; omega
  | ⟨1, _⟩ => show win1_4.index t (1 : Fin 2) * 2048 + 1 * q.val = r.val; omega

/-! ## The whole-array function -/

/-- The rank-one update: entry `(r, q)` is the decayed trace plus activity at row `r`, times the spike at column `q`. -/
def outerOf (tr act : S8192x1.Idx → EReal) (s : S1x8192.Idx → EReal) : S8192x8192.Idx → EReal :=
  fun ij => (tr (ix2 ⟨(ij 0).val, (ij 0).isLt⟩ 0) * Cert.SpikeTrace.decay + act (ix2 ⟨(ij 0).val, (ij 0).isLt⟩ 0))
    * s (ix2 0 ⟨(ij 1).val, (ij 1).isLt⟩)

/-- Entry `(p, q)` of the tile point `t` leaves in the first output buffer is the rank-one update at the array index the
    tile's rectangle gives that entry. -/
theorem tile5_entry (c : Dev nD) (t : Fin cfg1.N) (p : Fin 512) (q : Fin 2048) :
    out1_5 (F := Ideal) (iblk1 V c 0 t) (iblk1 V c 1 t) (iblk1 V c 4 t) (ix2 p q)
      = outerOf (V c main_v1) (V c main_v2) (V c main_v0) (((cfg1.win 5).blk t).view.emb (ix2 p q)) := by
  refine (out1_5_apply _ _ _ p q).trans ?_
  have hrow : (((cfg1.win 5).blk t).view.emb (ix2 p q) 0).val = win1_5.index t (0 : Fin 2) * 512 + p.val := by
    show win1_5.index t (0 : Fin 2) * 512 + 1 * p.val = _; omega
  have hcol : (((cfg1.win 5).blk t).view.emb (ix2 p q) 1).val = win1_5.index t (1 : Fin 2) * 2048 + q.val := by
    show win1_5.index t (1 : Fin 2) * 2048 + 1 * q.val = _; omega
  rw [iblk1_0_apply V c t p ⟨_, (((cfg1.win 5).blk t).view.emb (ix2 p q) 0).isLt⟩ hrow,
    iblk1_1_apply V c t p ⟨_, (((cfg1.win 5).blk t).view.emb (ix2 p q) 0).isLt⟩ hrow,
    iblk1_4_apply V c t q ⟨_, (((cfg1.win 5).blk t).view.emb (ix2 p q) 1).isLt⟩ hcol]
  rfl

theorem tile6_entry (c : Dev nD) (t : Fin cfg1.N) (p : Fin 512) (q : Fin 2048) :
    out1_6 (F := Ideal) (iblk1 V c 2 t) (iblk1 V c 3 t) (iblk1 V c 4 t) (ix2 p q)
      = outerOf (V c main_v3) (V c main_v4) (V c main_v0) (((cfg1.win 6).blk t).view.emb (ix2 p q)) := by
  refine (out1_6_apply _ _ _ p q).trans ?_
  obtain ⟨-, -, -, -, -, -, -, -, -, -, e0, e1, -⟩ := tile_index_facts t
  have hrow : (((cfg1.win 6).blk t).view.emb (ix2 p q) 0).val = win1_5.index t (0 : Fin 2) * 512 + p.val := by
    show win1_6.index t (0 : Fin 2) * 512 + 1 * p.val = _; omega
  have hcol : (((cfg1.win 6).blk t).view.emb (ix2 p q) 1).val = win1_5.index t (1 : Fin 2) * 2048 + q.val := by
    show win1_6.index t (1 : Fin 2) * 2048 + 1 * q.val = _; omega
  rw [iblk1_2_apply V c t p ⟨_, (((cfg1.win 6).blk t).view.emb (ix2 p q) 0).isLt⟩ hrow,
    iblk1_3_apply V c t p ⟨_, (((cfg1.win 6).blk t).view.emb (ix2 p q) 0).isLt⟩ hrow,
    iblk1_4_apply V c t q ⟨_, (((cfg1.win 6).blk t).view.emb (ix2 p q) 1).isLt⟩ hcol]
  rfl

/-! ## What each point writes back -/

/-- Point `t` writes back, to the first weight update's array, its tile of the rank-one update. -/
theorem flushed1_5 (c : Dev nD) (t : Fin cfg1.N) :
    (dat1 (F := Ideal) V c).flushed 5 t
      = ((cfg1.win 5).blk t).view.read (Elt Ideal) (outerOf (V c main_v1) (V c main_v2) (V c main_v0)) := by
  show (cfg1.win 5).cut (grid1.coords t) ((dat1 V c).after 5 t) = _
  rw [after1_5]
  funext j
  obtain ⟨p, q, rfl⟩ : ∃ (p : Fin 512) (q : Fin 2048), j = ix2 p q := ⟨j 0, j 1, eq_ix2 j⟩
  exact tile5_entry V c t p q

/-- And to the second's, the same of the second trace and activity. -/
theorem flushed1_6 (c : Dev nD) (t : Fin cfg1.N) :
    (dat1 (F := Ideal) V c).flushed 6 t
      = ((cfg1.win 6).blk t).view.read (Elt Ideal) (outerOf (V c main_v3) (V c main_v4) (V c main_v0)) := by
  show (cfg1.win 6).cut (grid1.coords t) ((dat1 V c).after 6 t) = _
  rw [after1_6]
  funext j
  obtain ⟨p, q, rfl⟩ : ∃ (p : Fin 512) (q : Fin 2048), j = ix2 p q := ⟨j 0, j 1, eq_ix2 j⟩
  exact tile6_entry V c t p q

/-! ## The 64 tiles cover the array -/

/-- An array index lies in point `t`'s tile exactly when each coordinate lies in the tile's range on its axis. -/
theorem mem_tile5 (t : Fin cfg1.N) (i : S8192x8192.Idx) :
    i ∈ ((cfg1.win 5).blk t).view.set ↔ ∀ a : Fin 2, win1_5.index t a * S512x2048.size a ≤ (i a).val
      ∧ (i a).val < win1_5.index t a * S512x2048.size a + S512x2048.size a := by
  show i ∈ ((View.whole main_v5_0).slice (win1_5.rect t)).set ↔ _
  rw [View.set_slice_whole, Rect.mem_set_unit]
  exact Iff.rfl

theorem mem_tile6 (t : Fin cfg1.N) (i : S8192x8192.Idx) :
    i ∈ ((cfg1.win 6).blk t).view.set ↔ ∀ a : Fin 2, win1_6.index t a * S512x2048.size a ≤ (i a).val
      ∧ (i a).val < win1_6.index t a * S512x2048.size a + S512x2048.size a := by
  show i ∈ ((View.whole main_v5_1).slice (win1_6.rect t)).set ↔ _
  rw [View.set_slice_whole, Rect.mem_set_unit]
  exact Iff.rfl

/-- The point whose tile holds index `(r, q)`: row block `r / 512`, column block `q / 2048`, the grid running over the
    column blocks fastest. -/
theorem pointOf (i : S8192x8192.Idx) : ∃ t : Fin cfg1.N, t.val = (i 0).val / 512 * 4 + (i 1).val / 2048 := by
  have h0 : (i 0).val < 8192 := idx2_lt0 i
  have h1 : (i 1).val < 8192 := idx2_lt1 i
  exact ⟨⟨(i 0).val / 512 * 4 + (i 1).val / 2048, Nat.lt_of_lt_of_eq (by omega) N_1.symm⟩, rfl⟩

theorem tiles_cover5 (i : S8192x8192.Idx) :
    ∃ t : Fin cfg1.N, (cfg1.win 5).flush t = true ∧ i ∈ ((cfg1.win 5).blk t).view.set := by
  have h0 : (i 0).val < 8192 := idx2_lt0 i
  have h1 : (i 1).val < 8192 := idx2_lt1 i
  obtain ⟨t, ht⟩ := pointOf i
  obtain ⟨-, -, -, -, -, -, -, -, -, -, -, -, e0, e1⟩ := tile_index_facts t
  refine ⟨t, flush1_5 t, ?_⟩
  rw [mem_tile5]
  intro a
  match a with
  | ⟨0, _⟩ =>
    show win1_5.index t (0 : Fin 2) * 512 ≤ (i 0).val ∧ (i 0).val < win1_5.index t (0 : Fin 2) * 512 + 512
    omega
  | ⟨1, _⟩ =>
    show win1_5.index t (1 : Fin 2) * 2048 ≤ (i 1).val ∧ (i 1).val < win1_5.index t (1 : Fin 2) * 2048 + 2048
    omega

theorem tiles_cover6 (i : S8192x8192.Idx) :
    ∃ t : Fin cfg1.N, (cfg1.win 6).flush t = true ∧ i ∈ ((cfg1.win 6).blk t).view.set := by
  have h0 : (i 0).val < 8192 := idx2_lt0 i
  have h1 : (i 1).val < 8192 := idx2_lt1 i
  obtain ⟨t, ht⟩ := pointOf i
  obtain ⟨-, -, -, -, -, -, -, -, -, -, f0, f1, e0, e1⟩ := tile_index_facts t
  refine ⟨t, flush1_6 t, ?_⟩
  rw [mem_tile6]
  intro a
  match a with
  | ⟨0, _⟩ =>
    show win1_6.index t (0 : Fin 2) * 512 ≤ (i 0).val ∧ (i 0).val < win1_6.index t (0 : Fin 2) * 512 + 512
    omega
  | ⟨1, _⟩ =>
    show win1_6.index t (1 : Fin 2) * 2048 ≤ (i 1).val ∧ (i 1).val < win1_6.index t (1 : Fin 2) * 2048 + 2048
    omega

/-! ## The two arrays after the call -/

/-- The rank-one update read at an index. -/
theorem outerOf_apply (tr act : S8192x1.Idx → EReal) (s : S1x8192.Idx → EReal) (ij : S8192x8192.Idx) :
    outerOf tr act s ij = (tr (ix2 ⟨(ij 0).val, (ij 0).isLt⟩ 0) * Cert.SpikeTrace.decay + act (ix2 ⟨(ij 0).val, (ij 0).isLt⟩ 0))
      * s (ix2 0 ⟨(ij 1).val, (ij 1).isLt⟩) := rfl

/-- The first weight update's array after all 64 points: at `(r, q)` the first trace decayed plus the first activity at
    row `r`, times the spike at column `q`, all read from the contents the call found. -/
theorem final1_5 (V : (c : Dev nD) → (b : Ref sig .tc) → Buf (Elt Ideal) ((c : Thread nD τ).loc b)) (c : Dev nD) :
    (dat1 (F := Ideal) V c).arrAt 5 cfg1.N = outerOf (V c main_v1) (V c main_v2) (V c main_v0) :=
  (dat1 (F := Ideal) V c).arrAt_eq_of_cover 5 (outerOf (V c main_v1) (V c main_v2) (V c main_v0))
    (fun t _ => flushed1_5 V c t) tiles_cover5

/-- The second weight update's array: the same of the second trace and activity. -/
theorem final1_6 (V : (c : Dev nD) → (b : Ref sig .tc) → Buf (Elt Ideal) ((c : Thread nD τ).loc b)) (c : Dev nD) :
    (dat1 (F := Ideal) V c).arrAt 6 cfg1.N = outerOf (V c main_v3) (V c main_v4) (V c main_v0) :=
  (dat1 (F := Ideal) V c).arrAt_eq_of_cover 6 (outerOf (V c main_v3) (V c main_v4) (V c main_v0))
    (fun t _ => flushed1_6 V c t) tiles_cover6

/-! ## The same function in the specification's words -/

/-- A row vector `[1, a]` re-laid as a column `[a, 1]` keeps its entries in order: row `r` of the column is entry `r` of the row. -/
theorem rowAsColumn_apply {α : Type} {a : ℕ} (x : (⟨2, ![1, a]⟩ : Shape).Idx → α)
    (h : (⟨2, ![1, a]⟩ : Shape).ShapeCasts ⟨2, ![a, 1]⟩) (r : Fin a) :
    shapeCast ⟨2, ![a, 1]⟩ x h (ix2 r (0 : Fin 1)) = x (ix2 (0 : Fin 1) r) :=
  shapeCast_apply x h _ _ (by
    rw [Shape.rowMajor_val_two, Shape.rowMajor_val_two]
    show 0 * a + r.val = r.val * 1 + 0
    omega)

/-- When the two column vectors are row vectors `tr'`, `act'` stood on end, the rank-one update is the specification's
    weight update of those rows and the spike row. -/
theorem outerOf_eq_hebb (tr act : S8192x1.Idx → EReal) (tr' act' s : Cert.SpikeTrace.Row.Idx → EReal)
    (htr : ∀ r : Fin 8192, tr (ix2 r 0) = tr' (ix2 0 r)) (hact : ∀ r : Fin 8192, act (ix2 r 0) = act' (ix2 0 r)) :
    outerOf tr act s = Cert.SpikeTrace.hebb tr' act' s := by
  funext ij
  unfold outerOf Cert.SpikeTrace.hebb Cert.SpikeTrace.trace
  rw [htr, hact]

end Cert.KernelIdeal.Hand

end
-- ==== Proof.IdealClaim.lean ====
import proofs.«157642_j27358941675618_2_alg».proof.Proof.IdealOuterInputs
import proofs.«157642_j27358941675618_2_alg».proof.Proof.IdealSpikeValue
import proofs.«157642_j27358941675618_2_alg».proof.Proof.IdealOuterValue
import proofs.«157642_j27358941675618_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! # The kernel program's three results, as the specification's functions of the launch memory

Over the extended reals the spike region's eight accumulated partial products per column block are the whole sums of
the specification, so its array is the specification's spikes; the outer-product region multiplies the updated traces,
read through the column copies, by those spikes. -/

/-- The specification's spikes of core `c`'s launch arguments. -/
abbrev spikesOf (c : Dev nD) : Cert.SpikeTrace.Row.Idx → EReal :=
  Cert.SpikeTrace.spike (m ((c.tc : Thread nD τ).loc main_arg0)) (m ((c.tc : Thread nD τ).loc main_arg1)) (m ((c.tc : Thread nD τ).loc main_arg2))
    (m ((c.tc : Thread nD τ).loc main_arg5)) (m ((c.tc : Thread nD τ).loc main_arg6))

/-- The spikes' array at the end. -/
theorem end_spikes (c : Dev nD) : atEnd m c (Proc.devRef .tc main_v0) = spikesOf m c :=
  (atEnd_spikes m c).trans (final0_5 (spikesEntry m) c)

/-- The first weight update at the end: the first trace, updated by the external drive, times the spikes. -/
theorem end_dw1 (c : Dev nD) : atEnd m c (Proc.devRef .tc main_v5_0)
    = Cert.SpikeTrace.hebb (m ((c.tc : Thread nD τ).loc main_arg3)) (m ((c.tc : Thread nD τ).loc main_arg0)) (spikesOf m c) := by
  rw [atEnd_dw1, final1_5 (outerEntry m) c, outer_finds_spikes m c, final0_5 (spikesEntry m) c]
  exact outerOf_eq_hebb _ _ _ _ _
    (fun r => (congrFun (outer_finds_main_v1 m c) _).trans (column_of_row _ r))
    (fun r => (congrFun (outer_finds_main_v2 m c) _).trans (column_of_row _ r))

/-- The second weight update at the end: the second trace, updated by the recurrent drive, times the spikes. -/
theorem end_dw2 (c : Dev nD) : atEnd m c (Proc.devRef .tc main_v5_1)
    = Cert.SpikeTrace.hebb (m ((c.tc : Thread nD τ).loc main_arg4)) (m ((c.tc : Thread nD τ).loc main_arg1)) (spikesOf m c) := by
  rw [atEnd_dw2, final1_6 (outerEntry m) c, outer_finds_spikes m c, final0_5 (spikesEntry m) c]
  exact outerOf_eq_hebb _ _ _ _ _
    (fun r => (congrFun (outer_finds_main_v3 m c) _).trans (column_of_row _ r))
    (fun r => (congrFun (outer_finds_main_v4 m c) _).trans (column_of_row _ r))

/-- Every weakly fair execution of the kernel program terminates with its three results at the specification's
    functions of the launch arguments, and the arguments unchanged. -/
theorem run_values : θ_run defs (onTc (τ := τ) (main (F := Ideal))) ⟨m, fun _ => 0, ρ⟩ (fun r => ∀ c : Dev nD,
      r.2.mem ((c.tc : Thread nD τ).loc main_v0) = spikesOf m c
      ∧ r.2.mem ((c.tc : Thread nD τ).loc main_v5_0) = Cert.SpikeTrace.hebb (m ((c.tc : Thread nD τ).loc main_arg3)) (m ((c.tc : Thread nD τ).loc main_arg0)) (spikesOf m c)
      ∧ r.2.mem ((c.tc : Thread nD τ).loc main_v5_1) = Cert.SpikeTrace.hebb (m ((c.tc : Thread nD τ).loc main_arg4)) (m ((c.tc : Thread nD τ).loc main_arg1)) (spikesOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (held_ref main_v0 (by decide))).trans (end_spikes m c),
      (h c _ (held_ref main_v5_0 (by decide))).trans (end_dw1 m c),
      (h c _ (held_ref main_v5_1 (by decide))).trans (end_dw2 m c),
      (h c _ (held_ref main_arg0 (by decide))).trans (atEnd_main_arg0 m c),
      (h c _ (held_ref main_arg1 (by decide))).trans (atEnd_main_arg1 m c),
      (h c _ (held_ref main_arg2 (by decide))).trans (atEnd_main_arg2 m c),
      (h c _ (held_ref main_arg3 (by decide))).trans (atEnd_main_arg3 m c),
      (h c _ (held_ref main_arg4 (by decide))).trans (atEnd_main_arg4 m c),
      (h c _ (held_ref main_arg5 (by decide))).trans (atEnd_main_arg5 m c),
      (h c _ (held_ref main_arg6 (by decide))).trans (atEnd_main_arg6 m c)⟩) (run_all m ρ)

end Cert.KernelIdeal.Hand

end
-- ==== Proof.RefValue.lean ====
/-
  The reference program computes exactly the specification.

  Read one entry at a time, the reference forms the input current of neuron `j` as two whole sums over the 8192
  presynaptic indices, adds the membrane potential, compares with one half and converts the bit to a number:
  that is `spike`. Each weight update is a matrix product of an 8192-by-1 column (the transposed updated trace)
  with the 1-by-8192 row of spikes; the contracted axis has a single index, so the product's entry `(r, c)` is
  the one term "updated trace of `r` times spike of `c`": that is `hebb`.
-/
import proofs.«157642_j27358941675618_2_alg».proof.Proof.Gen.ReferenceIdeal.Read
import proofs.«157642_j27358941675618_2_alg».proof.Proof.Spec

noncomputable section

namespace Cert.ReferenceIdeal.RefValue

open Cert.ReferenceIdeal Cert.ReferenceIdeal.Gen Idealize.ShloMosaic Idealize.ShloMosaic.ValueIdx Cert.SpikeTrace

/-! ## Where each product reads its operands -/

/-- The only row of a 1-by-8192 array is row zero. -/
theorem row_zero (i : S1x8192.Idx) : (i 0).val = 0 := Nat.lt_one_iff.mp (i 0).isLt

/-- Term `k` of the first current sum reads the drive at column `k` of its only row. -/
theorem drive_at (i : S1x8192.Idx) (k : Fin 8192) :
    Read.lidx_main_v0 i k = (ix2 (0 : Fin 1) k : S1x8192.Idx) :=
  funext fun a => Fin.ext (by
    match a with
    | ⟨0, _⟩ => exact row_zero i
    | ⟨1, _⟩ => rfl)

/-- Term `k` of the first current sum reads the weight from presynaptic index `k` to the neuron of entry `i`. -/
theorem weight_at (i : S1x8192.Idx) (k : Fin 8192) :
    Read.ridx_main_v0 i k = (ix2 k (⟨(i 1).val, (i 1).isLt⟩ : Fin 8192) : S8192x8192.Idx) :=
  funext fun a => Fin.ext (by
    match a with
    | ⟨0, _⟩ => rfl
    | ⟨1, _⟩ => rfl)

/-- The same two facts for the recurrent sum. -/
theorem recur_at (i : S1x8192.Idx) (k : Fin 8192) :
    Read.lidx_main_v1 i k = (ix2 (0 : Fin 1) k : S1x8192.Idx) :=
  funext fun a => Fin.ext (by
    match a with
    | ⟨0, _⟩ => exact row_zero i
    | ⟨1, _⟩ => rfl)

theorem recur_weight_at (i : S1x8192.Idx) (k : Fin 8192) :
    Read.ridx_main_v1 i k = (ix2 k (⟨(i 1).val, (i 1).isLt⟩ : Fin 8192) : S8192x8192.Idx) :=
  funext fun a => Fin.ext (by
    match a with
    | ⟨0, _⟩ => rfl
    | ⟨1, _⟩ => rfl)

/-- The single term of the first outer product reads the transposed column at row `r` of entry `(r, c)`, and the
    transpose reads the updated trace at column `r` of its only row. -/
theorem trace_at (ij : S8192x8192.Idx) :
    Read.idx_main_v13 (Read.lidx_main_v14 ij 0) = (ix2 (0 : Fin 1) (⟨(ij 0).val, (ij 0).isLt⟩ : Fin 8192) : S1x8192.Idx) :=
  funext fun a => Fin.ext (by
    match a with
    | ⟨0, _⟩ => rfl
    | ⟨1, _⟩ => rfl)

/-- The single term of the first outer product reads the spikes at column `c` of entry `(r, c)`. -/
theorem spike_at (ij : S8192x8192.Idx) :
    Read.ridx_main_v14 ij 0 = (ix2 (0 : Fin 1) (⟨(ij 1).val, (ij 1).isLt⟩ : Fin 8192) : S1x8192.Idx) :=
  funext fun a => Fin.ext (by
    match a with
    | ⟨0, _⟩ => rfl
    | ⟨1, _⟩ => rfl)

/-- The same two facts for the second outer product. -/
theorem trace2_at (ij : S8192x8192.Idx) :
    Read.idx_main_v15 (Read.lidx_main_v16 ij 0) = (ix2 (0 : Fin 1) (⟨(ij 0).val, (ij 0).isLt⟩ : Fin 8192) : S1x8192.Idx) :=
  funext fun a => Fin.ext (by
    match a with
    | ⟨0, _⟩ => rfl
    | ⟨1, _⟩ => rfl)

theorem spike2_at (ij : S8192x8192.Idx) :
    Read.ridx_main_v16 ij 0 = (ix2 (0 : Fin 1) (⟨(ij 1).val, (ij 1).isLt⟩ : Fin 8192) : S1x8192.Idx) :=
  funext fun a => Fin.ext (by
    match a with
    | ⟨0, _⟩ => rfl
    | ⟨1, _⟩ => rfl)

/-! ## The three results -/

/-- The reference's spikes are the specification's: entry `i` compares the potential plus the two whole current
    sums of neuron `i 1` with one half and reads the bit as a number. -/
theorem ref_spike (x x1 mem : (⟨S1x8192, .f32⟩ : BufTy).Contents (Elt Ideal))
    (w1 w2 : (⟨S8192x8192, .f32⟩ : BufTy).Contents (Elt Ideal)) :
    Read.val_main_v6 (F := Ideal) x x1 mem w1 w2 = spike x x1 mem w1 w2 := by
  funext i
  rw [Read.val_main_v6_apply, Read.val_main_v5_apply, Read.val_main_v3_apply, Read.val_main_v2_apply,
    Read.val_main_v0_apply, Read.val_main_v1_apply, Read.val_main_v4_apply, Read.val_main_cst_apply]
  simp only [drive_at, weight_at, recur_at, recur_weight_at]
  rfl

/-- The reference's first weight update is the specification's: the product over the one-index axis is its single
    term, the decayed trace plus the drive at row `r`, times the spike at column `c`. -/
theorem ref_dw1 (x x1 mem trace1 : (⟨S1x8192, .f32⟩ : BufTy).Contents (Elt Ideal))
    (w1 w2 : (⟨S8192x8192, .f32⟩ : BufTy).Contents (Elt Ideal)) :
    Read.val_main_v14 (F := Ideal) x x1 mem trace1 w1 w2 = hebb trace1 x (spike x x1 mem w1 w2) := by
  funext ij
  rw [Read.val_main_v14_apply, Fin.sum_univ_one, ref_spike, Read.val_main_v13_apply, Read.val_main_v9_apply,
    Read.val_main_v8_apply, Read.val_main_v7_apply, Read.val_main_cst_0_apply, trace_at, spike_at]
  rfl

/-- The reference's second weight update, likewise, from the recurrent trace and the previous spikes. -/
theorem ref_dw2 (x x1 mem trace2 : (⟨S1x8192, .f32⟩ : BufTy).Contents (Elt Ideal))
    (w1 w2 : (⟨S8192x8192, .f32⟩ : BufTy).Contents (Elt Ideal)) :
    Read.val_main_v16 (F := Ideal) x x1 mem trace2 w1 w2 = hebb trace2 x1 (spike x x1 mem w1 w2) := by
  funext ij
  rw [Read.val_main_v16_apply, Fin.sum_univ_one, ref_spike, Read.val_main_v15_apply, Read.val_main_v12_apply,
    Read.val_main_v11_apply, Read.val_main_v10_apply, Read.val_main_cst_1_apply, trace2_at, spike2_at]
  rfl

end Cert.ReferenceIdeal.RefValue

end
-- ==== Proof.RefRun.lean ====
/-
  The reference program's run, with its three results named by the specification.

  Every fair execution of the reference ends, faults nowhere, leaves the seven argument arrays as they were, and
  leaves in its three result arrays the spikes and the two weight updates of the specification, as functions of
  the arguments' initial contents. Dropping the statement about the results gives the frame claim: the program
  runs to the end and its arguments are unchanged.
-/
import proofs.«157642_j27358941675618_2_alg».proof.Proof.RefValue
import proofs.«157642_j27358941675618_2_alg».proof.Defs

noncomputable section

namespace Cert.ReferenceIdeal.RefValue

open Cert.ReferenceIdeal Cert.ReferenceIdeal.Gen Idealize.ShloMosaic Idealize.ShloMosaic.TcCoe Idealize.SL.Sem
  Cert.SpikeTrace

/-- The run of the reference from any memory: the spike array ends at `spike` of the drive, the previous spikes, the
    potential and the two weight matrices; the two update arrays end at `hebb` of each trace with its activity and
    those spikes; the seven arguments end unchanged. Each result is the run's composed term, recognised as the
    last stage of the operation-by-operation reading and then as the specification. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v6)
          = spike (m ((c.tc : Thread nD τ).loc main_arg0)) (m ((c.tc : Thread nD τ).loc main_arg1))
              (m ((c.tc : Thread nD τ).loc main_arg2)) (m ((c.tc : Thread nD τ).loc main_arg5))
              (m ((c.tc : Thread nD τ).loc main_arg6))
      ∧ r.2.mem ((c.tc : Thread nD τ).loc main_v14)
          = hebb (m ((c.tc : Thread nD τ).loc main_arg3)) (m ((c.tc : Thread nD τ).loc main_arg0))
              (spike (m ((c.tc : Thread nD τ).loc main_arg0)) (m ((c.tc : Thread nD τ).loc main_arg1))
                (m ((c.tc : Thread nD τ).loc main_arg2)) (m ((c.tc : Thread nD τ).loc main_arg5))
                (m ((c.tc : Thread nD τ).loc main_arg6)))
      ∧ r.2.mem ((c.tc : Thread nD τ).loc main_v16)
          = hebb (m ((c.tc : Thread nD τ).loc main_arg4)) (m ((c.tc : Thread nD τ).loc main_arg1))
              (spike (m ((c.tc : Thread nD τ).loc main_arg0)) (m ((c.tc : Thread nD τ).loc main_arg1))
                (m ((c.tc : Thread nD τ).loc main_arg2)) (m ((c.tc : Thread nD τ).loc main_arg5))
                (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run Cert.ReferenceIdeal.defs _ _).mono
    (fun _ h c =>
      ⟨(h c).1.trans (by rw [Read.val_main_v6_eq, ref_spike]),
       (h c).2.1.trans (by rw [Read.val_main_v14_eq, ref_dw1]),
       (h c).2.2.1.trans (by rw [Read.val_main_v16_eq, ref_dw2]),
       (h c).2.2.2⟩)
    (Cert.ReferenceIdeal.Value.run (F := Ideal) m ρ)

/-- The frame claim of the reference: it runs to the end and its seven arguments end unchanged. This is the run
    above with what it says about the results left out. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

end Cert.ReferenceIdeal.RefValue

end
-- ==== Proof.lean ====
/-
  The five claims about the integrate-and-fire layer with its two trace-driven weight updates.

  The kernel program computes the spikes in a first region, eight partial products per block of 2048 neurons
  accumulated in a scratch row, recasts four argument rows as columns, and forms the two rank-one weight updates in a
  second region. Its three frames (the word-level program's, the idealized program's, the reference's) say that every
  weakly fair execution terminates, nothing faulting, with the seven arguments unchanged. Over the extended reals the
  idealized program's three results are the reference's: a sum over 8192 indices is the sum of its eight blocks of
  1024, whatever the order, and a product with a one-entry contraction is the plain product. The idealization itself
  rewrote nothing.
-/
import proofs.«157642_j27358941675618_2_alg».proof.Defs
import proofs.«157642_j27358941675618_2_alg».proof.Proof.Gen.Kernel
import proofs.«157642_j27358941675618_2_alg».proof.Proof.Gen.KernelIdeal
import proofs.«157642_j27358941675618_2_alg».proof.Proof.Gen.ReferenceIdeal
import proofs.«157642_j27358941675618_2_alg».proof.Proof.Gen.Pre_finite_inputs
import proofs.«157642_j27358941675618_2_alg».proof.Proof.BitsRun
import proofs.«157642_j27358941675618_2_alg».proof.Proof.IdealClaim
import proofs.«157642_j27358941675618_2_alg».proof.Proof.RefRun
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_kernel_ideal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealization rewrote no operation. -/
theorem preserves : Cert.preserves_Kernel_KernelIdeal := trivial

/-- From memories that agree on the seven arguments the idealized kernel program and the idealized reference both end
    at the specification's spikes and weight updates of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Hand.run_values m ρ, ?_⟩
  refine (θ_run Cert.ReferenceIdeal.defs _ _).mono (fun _ h c => ?_) (Cert.ReferenceIdeal.RefValue.run_spec m' ρ')
  obtain ⟨a0, a1, a2, a3, a4, a5, a6⟩ := hagree c
  refine ⟨?_, ?_, ?_, (h c).2.2.2⟩
  · rw [(h c).1, a0, a1, a2, a5, a6]
  · rw [(h c).2.1, a0, a1, a2, a3, a5, a6]
  · rw [(h c).2.2.1, a0, a1, a2, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, Cert.ReferenceIdeal.RefValue.frame_ri, preserves, algebraic⟩

end Cert.Proof

end
